-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S500000 : Shape := ⟨1, ![500000]⟩
abbrev S50000x256 : Shape := ⟨2, ![50000, 256]⟩
abbrev S500x256 : Shape := ⟨2, ![500, 256]⟩
abbrev S256x128 : Shape := ⟨2, ![256, 128]⟩
abbrev S128x256 : Shape := ⟨2, ![128, 256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg11 : FVec F S128x256 .f32) (main_arg12 : FVec F S256x256 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg8 : FVec F S256x128 .f32) (main_arg9 : FVec F S128x256 .f32) (main_arg10 : FVec F S128x256 .f32) (main_arg11 : FVec F S128x256 .f32) (main_arg12 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_v33

def fn {F : FTy → Type} [FloatOps F] (main_arg0 : IVec S100000 32) (main_arg1 : IVec S500000 32) (main_arg2 : IVec S500000 32) (main_arg3 : IVec S500000 32) (main_arg4 : FVec F S50000x256 .f32) (main_arg5 : FVec F S500x256 .f32) (main_arg6 : FVec F S256x128 .f32) (main_arg7 : FVec F S256x128 .f32) (main_arg8 : FVec F S256x128 .f32) (main_arg9 : FVec F S128x256 .f32) (main_arg10 : FVec F S128x256 .f32) (main_arg11 : FVec F S128x256 .f32) (main_arg12 : FVec F S256x256 .f32) : IVec S_ 1 :=
  let main_v0 : FVec F S50000x256 .f32 := Host.absf main_arg4
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500x256 .f32 := Host.absf main_arg5
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_arg11 main_arg12 main_v13 main_v16
-- ==== Kernel.lean ====
abbrev S100000 : Shape := ⟨1, ![100000]⟩
abbrev S500000 : Shape := ⟨1, ![500000]⟩
abbrev S50000x256 : Shape := ⟨2, ![50000, 256]⟩
abbrev S500x256 : Shape := ⟨2, ![500, 256]⟩
abbrev S256x128 : Shape := ⟨2, ![256, 128]⟩
abbrev S128x256 : Shape := ⟨2, ![128, 256]⟩
abbrev S256x256 : Shape := ⟨2, ![256, 256]⟩
abbrev S_ : Shape := ⟨0, ![]⟩
abbrev S500000x1 : Shape := ⟨2, ![500000, 1]⟩
abbrev S100000x1 : Shape := ⟨2, ![100000, 1]⟩
abbrev S100000x256 : Shape := ⟨2, ![100000, 256]⟩
abbrev S500000x256 : Shape := ⟨2, ![500000, 256]⟩
abbrev S500000x128 : Shape := ⟨2, ![500000, 128]⟩
abbrev S10000x256 : Shape := ⟨2, ![10000, 256]⟩
abbrev S10000x128 : Shape := ⟨2, ![10000, 128]⟩
abbrev S100000x128 : Shape := ⟨2, ![100000, 128]⟩
abbrev S5000x128 : Shape := ⟨2, ![5000, 128]⟩
abbrev S5000x256 : Shape := ⟨2, ![5000, 256]⟩
abbrev S5000x1 : Shape := ⟨2, ![5000, 1]⟩
abbrev S500x128 : Shape := ⟨2, ![500, 128]⟩

abbrev nBuf : Space → Nat
  | .hbm => 120
  | .vmem => 43
  | .smem => 0
  | _ => 0

abbrev bufTy : (tb : Table) → Fin (tcTables nBuf tb) → BufTy
  | .hbm, ⟨0, _⟩ => ⟨S100000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S50000x256, .f32⟩
  | .hbm, ⟨5, _⟩ => ⟨S500x256, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S128x256, .f32⟩
  | .hbm, ⟨10, _⟩ => ⟨S128x256, .f32⟩
  | .hbm, ⟨11, _⟩ => ⟨S128x256, .f32⟩
  | .hbm, ⟨12, _⟩ => ⟨S256x256, .f32⟩
  | .hbm, ⟨13, _⟩ => ⟨S_, .f32⟩
  | .hbm, ⟨14, _⟩ => ⟨S500000, .f32⟩
  | .hbm, ⟨15, _⟩ => ⟨S_, .f32⟩
  | .hbm, ⟨16, _⟩ => ⟨S100000, .f32⟩
  | .hbm, ⟨17, _⟩ => ⟨S500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x256, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x256, .f32⟩
  | .hbm, ⟨58, _⟩ => ⟨S100000x256, .bf16⟩
  | .hbm, ⟨59, _⟩ => ⟨S256x128, .bf16⟩
  | .hbm, ⟨60, _⟩ => ⟨S256x128, .bf16⟩
  | .hbm, ⟨61, _⟩ => ⟨S128x256, .bf16⟩
  | .hbm, ⟨62, _⟩ => ⟨S128x256, .bf16⟩
  | .hbm, ⟨63, _⟩ => ⟨S256x256, .bf16⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x256, .f32⟩
  | .hbm, ⟨73, _⟩ => ⟨S500000x128, .f32⟩
  | .hbm, ⟨74, _⟩ => ⟨S_, .f32⟩
  | .hbm, ⟨75, _⟩ => ⟨S100000x128, .f32⟩
  | .hbm, ⟨76, _⟩ => ⟨S500000x1, .i32⟩
  | .hbm, ⟨77, _⟩ => ⟨S100000x128, .f32⟩
  | .hbm, ⟨78, _⟩ => ⟨S100000x128, .f32⟩
  | .hbm, ⟨79, _⟩ => ⟨S100000x128, .bf16⟩
  | .hbm, ⟨80, _⟩ => ⟨S500x128, .f32⟩
  | .hbm, ⟨81, _⟩ => ⟨S_, .i32⟩
  | .hbm, ⟨82, _⟩ => ⟨S500000, .i32⟩
  | .hbm, ⟨83, _⟩ => ⟨S500000, .i1⟩
  | .hbm, ⟨84, _⟩ => ⟨S_, .i32⟩
  | .hbm, ⟨85, _⟩ => ⟨S500000, .i32⟩
  | .hbm, ⟨86, _⟩ => ⟨S500000, .i32⟩
  | .hbm, ⟨87, _⟩ => ⟨S500000, .i32⟩
  | .hbm, ⟨88, _⟩ => ⟨S500000x1, .i32⟩
  | .hbm, ⟨89, _⟩ => ⟨S500000x128, .f32⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S500000x128, .f32⟩
  | .hbm, ⟨99, _⟩ => ⟨S500000x128, .f32⟩
  | .hbm, ⟨100, _⟩ => ⟨S_, .f32⟩
  | .hbm, ⟨101, _⟩ => ⟨S100000x128, .f32⟩
  | .hbm, ⟨102, _⟩ => ⟨S500000x1, .i32⟩
  | .hbm, ⟨103, _⟩ => ⟨S100000x128, .f32⟩
  | .hbm, ⟨104, _⟩ => ⟨S100000x256, .f32⟩
  | .hbm, ⟨105, _⟩ => ⟨S100000x256, .f32⟩
  | .hbm, ⟨106, _⟩ => ⟨S_, .i32⟩
  | .hbm, ⟨107, _⟩ => ⟨S500000, .i32⟩
  | .hbm, ⟨108, _⟩ => ⟨S500000, .i1⟩
  | .hbm, ⟨109, _⟩ => ⟨S_, .i32⟩
  | .hbm, ⟨110, _⟩ => ⟨S500000, .i32⟩
  | .hbm, ⟨111, _⟩ => ⟨S500000, .i32⟩
  | .hbm, ⟨112, _⟩ => ⟨S500000, .i32⟩
  | .hbm, ⟨113, _⟩ => ⟨S500000x1, .i32⟩
  | .hbm, ⟨114, _⟩ => ⟨S500000x256, .f32⟩
  | .hbm, ⟨115, _⟩ => ⟨S_, .f32⟩
  | .hbm, ⟨116, _⟩ => ⟨S100000x256, .f32⟩
  | .hbm, ⟨117, _⟩ => ⟨S500000x1, .i32⟩
  | .hbm, ⟨118, _⟩ => ⟨S100000x256, .f32⟩
  | .hbm, ⟨119, _⟩ => ⟨S100000x256, .f32⟩
  | .local _ .vmem, ⟨0, _⟩ => ⟨S10000x256, .f32⟩
  | .local _ .vmem, ⟨1, _⟩ => ⟨S10000x256, .f32⟩
  | .local _ .vmem, ⟨2, _⟩ => ⟨S10000x256, .f32⟩
  | .local _ .vmem, ⟨3, _⟩ => ⟨S10000x256, .f32⟩
  | .local _ .vmem, ⟨4, _⟩ => ⟨S256x128, .bf16⟩
  | .local _ .vmem, ⟨5, _⟩ => ⟨S10000x128, .f32⟩
  | .local _ .vmem, ⟨6, _⟩ => ⟨S10000x128, .f32⟩
  | .local _ .vmem, ⟨7, _⟩ => ⟨S5000x128, .f32⟩
  | .local _ .vmem, ⟨8, _⟩ => ⟨S5000x128, .f32⟩
  | .local _ .vmem, ⟨9, _⟩ => ⟨S5000x256, .bf16⟩
  | .local _ .vmem, ⟨10, _⟩ => ⟨S5000x256, .bf16⟩
  | .local _ .vmem, ⟨11, _⟩ => ⟨S256x128, .bf16⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .bf16⟩
  | .local _ .vmem, ⟨25, _⟩ => ⟨S5000x128, .bf16⟩
  | .local _ .vmem, ⟨26, _⟩ => ⟨S128x256, .bf16⟩
  | .local _ .vmem, ⟨27, _⟩ => ⟨S128x256, .bf16⟩
  | .local _ .vmem, ⟨28, _⟩ => ⟨S5000x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S5000x256, .f32⟩
  | .local _ .vmem, ⟨37, _⟩ => ⟨S5000x256, .f32⟩
  | .local _ .vmem, ⟨38, _⟩ => ⟨S5000x1, .f32⟩
  | .local _ .vmem, ⟨39, _⟩ => ⟨S5000x1, .f32⟩
  | .local _ .vmem, ⟨40, _⟩ => ⟨S256x256, .bf16⟩
  | .local _ .vmem, ⟨41, _⟩ => ⟨S5000x256, .f32⟩
  | .local _ .vmem, ⟨42, _⟩ => ⟨S5000x256, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem3_1 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  bcast_S100000_S100000x1_0 : S100000.BroadcastsInDim S100000x1 (![0] : Fin 1 → Fin S100000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S_S100000x128 : S_.BroadcastsInDim S100000x128 (![] : Fin 0 → Fin S100000x128.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S5000x1_S5000x256 : S5000x1.Broadcasts S5000x256
  bcast_S_S100000x256 : S_.BroadcastsInDim S100000x256 (![] : Fin 0 → Fin S100000x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S100000_S500000x1_S500000_n_0_0_1_wf : ScatterDims.WF S100000 S500000x1 S500000 [] [0] [0] 1
  gather_S50000x256_S100000x1_S100000x256_1_0_n_n_0_1_1256_wf : GatherDims.WF S50000x256 S100000x1 S100000x256 [1] [0] [] [0] [] 1 ![1, 256]
  gather_S500x256_S500000x1_S500000x256_1_0_n_n_0_1_1256_wf : GatherDims.WF S500x256 S500000x1 S500000x256 [1] [0] [] [0] [] 1 ![1, 256]
  gather_S100000x256_S500000x1_S500000x256_1_0_n_n_0_1_1256_wf : GatherDims.WF S100000x256 S500000x1 S500000x256 [1] [0] [] [0] [] 1 ![1, 256]
  dot_S10000x256_S256x128_S10000x128_1_0_0_1_n_n_wf : DotDims.WF S10000x256 S256x128 S10000x128 [1] [0] [0] [1] [] []
  scatter_S100000x128_S500000x1_S500000x128_1_0_0_1_wf : ScatterDims.WF S100000x128 S500000x1 S500000x128 [1] [0] [0] 1
  dot_S5000x256_S256x128_S5000x128_1_0_0_1_n_n_wf : DotDims.WF S5000x256 S256x128 S5000x128 [1] [0] [0] [1] [] []
  dot_S500x256_S256x128_S500x128_1_0_0_1_n_n_wf : DotDims.WF S500x256 S256x128 S500x128 [1] [0] [0] [1] [] []
  gather_S500x128_S500000x1_S500000x128_1_0_n_n_0_1_1128_wf : GatherDims.WF S500x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S5000x128_S128x256_S5000x256_1_0_0_1_n_n_wf : DotDims.WF S5000x128 S128x256 S5000x256 [1] [0] [0] [1] [] []
  scatter_S100000x256_S500000x1_S500000x256_1_0_0_1_wf : ScatterDims.WF S100000x256 S500000x1 S500000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S500000x256.size a
  hwx0_0 : ∀ i : grid0.Coords, EltTy.bits .f32 = 32 ∨ (Rect.block (s := S500000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S500000x256.size a
  hwx0_1 : ∀ i : grid0.Coords, EltTy.bits .f32 = 32 ∨ (Rect.block (s := S500000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .bf16 = 32 ∨ (Rect.block (s := S100000x256) S5000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S500000x128.size a
  hwx2_0 : ∀ i : grid2.Coords, EltTy.bits .f32 = 32 ∨ (Rect.block (s := S500000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S500000x128.size a
  hwx2_1 : ∀ i : grid2.Coords, EltTy.bits .f32 = 32 ∨ (Rect.block (s := S500000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S500000x128.size a
  hwx2_2 : ∀ i : grid2.Coords, EltTy.bits .f32 = 32 ∨ (Rect.block (s := S500000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .bf16 = 32 ∨ (Rect.block (s := S128x256) S128x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .bf16 = 32 ∨ (Rect.block (s := S128x256) S128x256.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x256.size a ≤ S100000x256.size a
  hwx3_6 : ∀ i : grid3.Coords, EltTy.bits .f32 = 32 ∨ (Rect.block (s := S100000x256) S5000x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S100000x256.size a
  hwx3_7 : ∀ i : grid3.Coords, EltTy.bits .f32 = 32 ∨ (Rect.block (s := S100000x256) S5000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S100000x256.size a
  hwx4_3 : ∀ i : grid4.Coords, EltTy.bits .f32 = 32 ∨ (Rect.block (s := S100000x256) S5000x256.size (cc4_transform_3 i) (hinb4_3 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S500x256_S500000x1_S500000x256_1_0_n_n_0_1_1256 : GatherDims S500x256 S500000x1 S500000x256 where
  offsetDims := [1]
  collapsedSliceDims := [0]
  operandBatchingDims := []
  startIndicesBatchingDims := []
  startIndexMap := [0]
  indexVectorDim := 1
  sliceSizes := ![1, 256]
  wf := gather_S500x256_S500000x1_S500000x256_1_0_n_n_0_1_1256_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S500x256_S256x128_S500x128_1_0_0_1_n_n : DotDims S500x256 S256x128 S500x128 where
  lhsContracting := [1]
  rhsContracting := [0]
  lhsNonContracting := [0]
  rhsNonContracting := [1]
  lhsBatch := []
  rhsBatch := []
  wf := dot_S500x256_S256x128_S500x128_1_0_0_1_n_n_wf
def gather_S500x128_S500000x1_S500000x128_1_0_n_n_0_1_1128 : GatherDims S500x128 S500000x1 S500000x128 where
  offsetDims := [1]
  collapsedSliceDims := [0]
  operandBatchingDims := []
  startIndicesBatchingDims := []
  startIndexMap := [0]
  indexVectorDim := 1
  sliceSizes := ![1, 128]
  wf := gather_S500x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v46) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S10000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v15) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v72_0) S5000x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v72_1) S5000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v82) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S500000 : Shape := ⟨1, ![500000]⟩
abbrev S50000x256 : Shape := ⟨2, ![50000, 256]⟩
abbrev S500x256 : Shape := ⟨2, ![500, 256]⟩
abbrev S256x128 : Shape := ⟨2, ![256, 128]⟩
abbrev S128x256 : Shape := ⟨2, ![128, 256]⟩
abbrev S256x256 : Shape := ⟨2, ![256, 256]⟩
abbrev S_ : Shape := ⟨0, ![]⟩
abbrev S100000x1 : Shape := ⟨2, ![100000, 1]⟩
abbrev S100000x256 : Shape := ⟨2, ![100000, 256]⟩
abbrev S500000x1 : Shape := ⟨2, ![500000, 1]⟩
abbrev S500000x256 : Shape := ⟨2, ![500000, 256]⟩
abbrev S500000x128 : Shape := ⟨2, ![500000, 128]⟩
abbrev S100000x128 : Shape := ⟨2, ![100000, 128]⟩

abbrev nBuf : Space → Nat
  | .hbm => 135
  | .vmem => 0
  | .smem => 0
  | _ => 0

abbrev hbmTy0_0 (i : Nat) : BufTy := match i % 128 with
  | 0 => ⟨S100000, .i32⟩
  | 1 => ⟨S500000, .i32⟩
  | 2 => ⟨S500000, .i32⟩
  | 3 => ⟨S500000, .i32⟩
  | 4 => ⟨S50000x256, .f32⟩
  | 5 => ⟨S500x256, .f32⟩
  | 6 => ⟨S256x128, .f32⟩
  | 7 => ⟨S256x128, .f32⟩
  | 8 => ⟨S256x128, .f32⟩
  | 9 => ⟨S128x256, .f32⟩
  | 10 => ⟨S128x256, .f32⟩
  | 11 => ⟨S128x256, .f32⟩
  | 12 => ⟨S256x256, .f32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x256, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x256, .f32⟩
  | 31 => ⟨S_, .f32⟩
  | 32 => ⟨S500000, .f32⟩
  | 33 => ⟨S_, .f32⟩
  | 34 => ⟨S100000, .f32⟩
  | 35 => ⟨S500000x1, .i32⟩
  | 36 => ⟨S100000, .f32⟩
  | 37 => ⟨S_, .f32⟩
  | 38 => ⟨S100000, .f32⟩
  | 39 => ⟨S500000x1, .i32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x256, .f32⟩
  | 56 => ⟨S500000x256, .f32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S500000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S500000x128, .f32⟩
  | 81 => ⟨S500000x256, .f32⟩
  | 82 => ⟨S_, .f32⟩
  | 83 => ⟨S100000x256, .f32⟩
  | 84 => ⟨S500000x1, .i32⟩
  | 85 => ⟨S100000x256, .f32⟩
  | 86 => ⟨S100000x1, .f32⟩
  | 87 => ⟨S100000x256, .f32⟩
  | 88 => ⟨S100000x256, .f32⟩
  | 89 => ⟨S100000x256, .f32⟩
  | 90 => ⟨S100000x256, .f32⟩
  | 91 => ⟨S_, .f32⟩
  | 92 => ⟨S100000x256, .f32⟩
  | 93 => ⟨S100000x256, .f32⟩
  | 94 => ⟨S500000x256, .f32⟩
  | 95 => ⟨S_, .f32⟩
  | 96 => ⟨S100000, .f32⟩
  | 97 => ⟨S100000, .f32⟩
  | 98 => ⟨S100000, .f32⟩
  | 99 => ⟨S_, .f32⟩
  | 100 => ⟨S100000, .f32⟩
  | 101 => ⟨S100000, .f32⟩
  | 102 => ⟨S100000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x256, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000, .f32⟩
  | 121 => ⟨S500000x1, .f32⟩
  | 122 => ⟨S500000x256, .f32⟩
  | 123 => ⟨S500000x256, .f32⟩
  | 124 => ⟨S_, .f32⟩
  | 125 => ⟨S100000x256, .f32⟩
  | 126 => ⟨S500000x1, .i32⟩
  | 127 => ⟨S100000x256, .f32⟩
  | _ => ⟨S100000, .i32⟩

abbrev hbmTy0_1 (i : Nat) : BufTy := match i % 128 with
  | 0 => ⟨S100000x1, .f32⟩
  | 1 => ⟨S100000x256, .f32⟩
  | 2 => ⟨S100000x256, .f32⟩
  | 3 => ⟨S100000x256, .f32⟩
  | 4 => ⟨S_, .f32⟩
  | 5 => ⟨S100000x256, .f32⟩
  | 6 => ⟨S100000x256, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call0_cst : Ref sig .tc := ⟨.hbm, 67, rfl⟩
abbrev main_call0_v0 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_cst : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_17 : Ref sig .tc := ⟨.hbm, 112, rfl⟩
abbrev main_v76 : Ref sig .tc := ⟨.hbm, 113, rfl⟩
abbrev main_v77 : Ref sig .tc := ⟨.hbm, 114, rfl⟩
abbrev main_c_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_19 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call2_cst : Ref sig .tc := ⟨.hbm, 132, rfl⟩
abbrev main_call2_v0 : Ref sig .tc := ⟨.hbm, 133, rfl⟩
abbrev main_v93 : Ref sig .tc := ⟨.hbm, 134, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S500000x1_S500000x256_0_1 : S500000x1.BroadcastsInDim S500000x256 (![0, 1] : Fin 2 → Fin S500000x256.rank)
  gather_S50000x256_S100000x1_S100000x256_1_0_n_n_0_1_1256_wf : GatherDims.WF S50000x256 S100000x1 S100000x256 [1] [0] [] [0] [] 1 ![1, 256]
  gather_S500x256_S500000x1_S500000x256_1_0_n_n_0_1_1256_wf : GatherDims.WF S500x256 S500000x1 S500000x256 [1] [0] [] [0] [] 1 ![1, 256]
  scatter_S100000_S500000x1_S500000_n_0_0_1_wf : ScatterDims.WF S100000 S500000x1 S500000 [] [0] [0] 1
  gather_S100000x256_S500000x1_S500000x256_1_0_n_n_0_1_1256_wf : GatherDims.WF S100000x256 S500000x1 S500000x256 [1] [0] [] [0] [] 1 ![1, 256]
  dot_S500000x256_S256x128_S500000x128_1_0_0_1_n_n_wf : DotDims.WF S500000x256 S256x128 S500000x128 [1] [0] [0] [1] [] []
  scatter_S100000x128_S500000x1_S500000x128_1_0_0_1_wf : ScatterDims.WF S100000x128 S500000x1 S500000x128 [1] [0] [0] 1
  dot_S100000x256_S256x128_S100000x128_1_0_0_1_n_n_wf : DotDims.WF S100000x256 S256x128 S100000x128 [1] [0] [0] [1] [] []
  gather_S100000x128_S500000x1_S500000x128_1_0_n_n_0_1_1128_wf : GatherDims.WF S100000x128 S500000x1 S500000x128 [1] [0] [] [0] [] 1 ![1, 128]
  dot_S500000x128_S128x256_S500000x256_1_0_0_1_n_n_wf : DotDims.WF S500000x128 S128x256 S500000x256 [1] [0] [0] [1] [] []
  scatter_S100000x256_S500000x1_S500000x256_1_0_0_1_wf : ScatterDims.WF S100000x256 S500000x1 S500000x256 [1] [0] [0] 1
  dot_S100000x128_S128x256_S100000x256_1_0_0_1_n_n_wf : DotDims.WF S100000x128 S128x256 S100000x256 [1] [0] [0] [1] [] []
  gather_S100000_S500000x1_S500000_n_0_n_n_0_1_1_wf : GatherDims.WF S100000 S500000x1 S500000 [] [0] [] [0] [] 1 ![1]
  dot_S100000x256_S256x256_S100000x256_1_0_0_1_n_n_wf : DotDims.WF S100000x256 S256x256 S100000x256 [1] [0] [0] [1] [] []

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S500x256_S500000x1_S500000x256_1_0_n_n_0_1_1256 : GatherDims S500x256 S500000x1 S500000x256 where
  offsetDims := [1]
  collapsedSliceDims := [0]
  operandBatchingDims := []
  startIndicesBatchingDims := []
  startIndexMap := [0]
  indexVectorDim := 1
  sliceSizes := ![1, 256]
  wf := gather_S500x256_S500000x1_S500000x256_1_0_n_n_0_1_1256_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KRun.lean ====
/-
  The idealized kernel's run with its result named.

  @main is ten segments: five stretches of host operations and five tiled regions. The buffer contents at each segment
  boundary are a fold from the launch memory; the last boundary's contents are `Gen.W10`. Every weakly fair execution
  terminates, nothing faulting, and the final state holds, at every buffer that lives through the run, the last
  boundary's contents: in particular the result buffer holds `Gen.W10` there, and each argument what it was launched with.
-/
import proofs.«110422_j61856118997742_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.RunValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«110422_j61856118997742_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«110422_j61856118997742_2_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.LibRelGraphNet.lean ====
/-
  A two-layer relational graph network with a spectral read-out, as functions of whole matrices over the extended reals.

  Nodes carry rows of features, edges carry a relation row, a source node and a destination node. Rows are fetched by a
  row selector (`gatherRows`), and edge rows are summed into the row of their destination (`scatterRows`: an edge whose
  destination is no row is dropped). The in- and out-degree of a node count its edges; `invDeg` is one over the degree
  (at least one), `rsqrtDeg` its inverse square root.

  One layer composes each edge's source row with its relation row entry by entry, and then projects, sums over incoming
  edges, scales by `invDeg`, adds the node's own projected row and clamps at zero. The projection is linear, so it may
  be applied per edge before the sum (`upd` over a scattered product) or per node after the sum and the scaling
  (`updLate`). `netK` does the second layer the late way, projects the relation rows before fetching them, and scales the
  second layer's rows by the source normalisation before fetching them; `netR` does each of these the other way round.
-/
import proofs.«110422_j61856118997742_2_alg».proof.Proof.LibLayers

noncomputable section

namespace Cert.CompGcn

open scoped BigOperators
open Idealize.ShloMosaic Idealize.ShloMosaic.ValueIdx Cert.LibMatProd Cert.Layers

/-- The value of the all-zero float word. -/
abbrev Z : EReal := Ideal.ofBits .f32 0x00000000#32
/-- The value of the float word of one. -/
abbrev ONE : EReal := Ideal.ofBits .f32 0x3F800000#32

variable {M N K J C E V R H O : ℕ}

/-- Entry by entry product. -/
def had (a b : Mat M N) : Mat M N := fun i => a i * b i

/-- Every row scaled by its entry of a one-column matrix. -/
def rowScale (a : Mat M N) (s : Mat M 1) : Mat M N := fun i => a i * s (ix2 (i 0) (0 : Fin 1))

/-- The composed rows projected: (a ∘ b) · w. -/
def proj (a b : Mat M K) (w : Mat K N) : Mat M N := matProd (had a b) w

/-- A node update from an aggregate already projected: clamp (agg scaled row by row + h · w). -/
def upd (agg : Mat M N) (h : Mat M K) (w : Mat K N) (s : Mat M 1) : Mat M N :=
  clamp (fun i => rowScale agg s i + matProd h w i)

/-- A node update that projects the scaled aggregate itself: clamp ((agg scaled row by row) · wm + h · ws). -/
def updLate (agg : Mat M J) (h : Mat M K) (wm : Mat J N) (ws : Mat K N) (s : Mat M 1) : Mat M N :=
  clamp (fun i => matProd (rowScale agg s) wm i + matProd h ws i)

/-- The spectral read-out: clamp ((agg scaled row by row) · w). -/
def spectral (agg : Mat M K) (s : Mat M 1) (w : Mat K N) : Mat M N := clamp (matProd (rowScale agg s) w)

/-- Row `e` of the result is row `sel e` of `x`. -/
def gatherRows (x : Mat N C) (sel : Fin E → Fin N) : Mat E C := fun i => x (ix2 (sel (i 0)) (i 1))

/-- Row `n` of the result is the sum of the rows `e` of `u` whose target is `n`, from zero. -/
def scatterAt (tgt : Fin E → Option (Fin N)) (u : Mat E C) (n : Fin N) (f : Fin C) : EReal :=
  Z + ∑ e ∈ Finset.univ.filter (fun e : Fin E => tgt e = some n), u (ix2 e f)

/-- The scattered sum as a matrix: entry (n, f) is `scatterAt` there. -/
def scatterRows (tgt : Fin E → Option (Fin N)) (u : Mat E C) : Mat N C :=
  fun i => scatterAt tgt u (i 0) (i 1)

/-- The number of edges whose target is `n`, as a sum of ones from zero. -/
def degree (tgt : Fin E → Option (Fin N)) (n : Fin N) : EReal :=
  Z + ∑ _e ∈ Finset.univ.filter (fun e : Fin E => tgt e = some n), ONE

/-- One over the degree, the degree taken at least one. -/
def invDeg (tgt : Fin E → Option (Fin N)) : Mat N 1 := fun i => Ideal.div ONE (max (degree tgt (i 0)) ONE)

/-- The inverse square root of the degree, the degree taken at least one. -/
def rsqrtDeg (tgt : Fin E → Option (Fin N)) : Mat N 1 := fun i => Ideal.rsqrt (max (degree tgt (i 0)) ONE)

/-- The first layer's node rows, the same in both arrangements. -/
def layer1 (selN : Fin N → Fin V) (selT : Fin E → Fin R) (selS : Fin E → Fin N) (tD : Fin E → Option (Fin N))
    (ent : Mat V H) (rel : Mat R H) (wm1 ws1 : Mat H O) : Mat N O :=
  upd (scatterRows tD (proj (gatherRows (gatherRows ent selN) selS) (gatherRows rel selT) wm1))
    (gatherRows ent selN) ws1 (invDeg tD)

/-- The rest of the network from the first layer's rows, the late arrangement. -/
def tailK (selT : Fin E → Fin R) (selS : Fin E → Fin N) (tD tS : Fin E → Option (Fin N))
    (h1 : Mat N O) (rel : Mat R H) (wr1 : Mat H O) (wm2 ws2 : Mat O H) (wsc : Mat H H) : Mat N H :=
  spectral (scatterRows tD (gatherRows (rowScale
      (updLate (scatterRows tD (had (gatherRows h1 selS) (gatherRows (matProd rel wr1) selT))) h1 wm2 ws2 (invDeg tD))
      (rsqrtDeg tS)) selS))
    (rsqrtDeg tD) wsc

/-- The rest of the network from the first layer's rows, the per-edge arrangement. -/
def tailR (selT : Fin E → Fin R) (selS : Fin E → Fin N) (tD tS : Fin E → Option (Fin N))
    (h1 : Mat N O) (rel : Mat R H) (wr1 : Mat H O) (wm2 ws2 : Mat O H) (wsc : Mat H H) : Mat N H :=
  spectral (scatterRows tD (rowScale
      (gatherRows (upd (scatterRows tD (matProd (had (gatherRows h1 selS) (matProd (gatherRows rel selT) wr1)) wm2))
        h1 ws2 (invDeg tD)) selS)
      (gatherRows (rsqrtDeg tS) selS)))
    (rsqrtDeg tD) wsc

/-- The network, the late arrangement. -/
def netK (selN : Fin N → Fin V) (selT : Fin E → Fin R) (selS : Fin E → Fin N) (tD tS : Fin E → Option (Fin N))
    (ent : Mat V H) (rel : Mat R H) (wm1 ws1 wr1 : Mat H O) (wm2 ws2 : Mat O H) (wsc : Mat H H) : Mat N H :=
  tailK selT selS tD tS (layer1 selN selT selS tD ent rel wm1 ws1) rel wr1 wm2 ws2 wsc

/-- The network, the per-edge arrangement. -/
def netR (selN : Fin N → Fin V) (selT : Fin E → Fin R) (selS : Fin E → Fin N) (tD tS : Fin E → Option (Fin N))
    (ent : Mat V H) (rel : Mat R H) (wm1 ws1 wr1 : Mat H O) (wm2 ws2 : Mat O H) (wsc : Mat H H) : Mat N H :=
  tailR selT selS tD tS (layer1 selN selT selS tD ent rel wm1 ws1) rel wr1 wm2 ws2 wsc

/-! ## Index columns and one-column matrices -/

/-- A vector of row numbers as a column `[M, 1]`, negative numbers first wrapped by adding `n`. -/
def wrapCol {M : ℕ} (n : BitVec 32) (h0 : (⟨0, ![]⟩ : Shape).BroadcastsInDim ⟨1, ![M]⟩ ![])
    (h1 : (⟨1, ![M]⟩ : Shape).BroadcastsInDim ⟨2, ![M, 1]⟩ ![0]) (v : IVec ⟨1, ![M]⟩ 32) : IVec ⟨2, ![M, 1]⟩ 32 :=
  broadcastInDim ⟨2, ![M, 1]⟩ ![0] h1
    (select (cmpi .slt v (broadcastInDim ⟨1, ![M]⟩ ![] h0 (constantI ⟨0, ![]⟩ 32 0#32)))
      (addi v (broadcastInDim ⟨1, ![M]⟩ ![] h0 (constantI ⟨0, ![]⟩ 32 n))) v)

/-- A vector of row numbers as a column `[M, 1]`, as it is. -/
def rawCol {M : ℕ} (h1 : (⟨1, ![M]⟩ : Shape).BroadcastsInDim ⟨2, ![M, 1]⟩ ![0]) (v : IVec ⟨1, ![M]⟩ 32) :
    IVec ⟨2, ![M, 1]⟩ 32 :=
  broadcastInDim ⟨2, ![M, 1]⟩ ![0] h1 v

/-- A vector as a one-column matrix: entry (p, 0) is the vector's entry p. -/
def colOf {M : ℕ} (v : (⟨1, ![M]⟩ : Shape).Idx → EReal) : Mat M 1 := fun i => v (ix1 (i 0))

/-- The degrees as a vector. -/
def degVec (tgt : Fin E → Option (Fin N)) : (⟨1, ![N]⟩ : Shape).Idx → EReal := fun i => degree tgt (i 0)

/-! ## Bands of rows: every row-wise function of a band is the band of the function -/

theorem band_had (T r : ℕ) (h : r + T ≤ M) (a b : Mat M N) : had (band T r h a) (band T r h b) = band T r h (had a b) := rfl

theorem band_rowScale (T r : ℕ) (h : r + T ≤ M) (a : Mat M N) (s : Mat M 1) :
    rowScale (band T r h a) (band T r h s) = band T r h (rowScale a s) := rfl

theorem band_proj (T r : ℕ) (h : r + T ≤ M) (a b : Mat M K) (w : Mat K N) :
    proj (band T r h a) (band T r h b) w = band T r h (proj a b w) := rfl

theorem band_upd (T r : ℕ) (h : r + T ≤ M) (agg : Mat M N) (x : Mat M K) (w : Mat K N) (s : Mat M 1) :
    upd (band T r h agg) (band T r h x) w (band T r h s) = band T r h (upd agg x w s) := rfl

theorem band_updLate (T r : ℕ) (h : r + T ≤ M) (agg : Mat M J) (x : Mat M K) (wm : Mat J N) (ws : Mat K N) (s : Mat M 1) :
    updLate (band T r h agg) (band T r h x) wm ws (band T r h s) = band T r h (updLate agg x wm ws s) := rfl

theorem band_spectral (T r : ℕ) (h : r + T ≤ M) (agg : Mat M K) (s : Mat M 1) (w : Mat K N) :
    spectral (band T r h agg) (band T r h s) w = band T r h (spectral agg s w) := rfl

end Cert.CompGcn

end
-- ==== Proof.LibGatherRows.lean ====
/-
  Row gathers read at an index: `stablehlo.gather` of a rank-1 or rank-2 operand along its first axis at a column
  `[M, 1]` of start indices (what `x[idx]` lowers to) is the operand's row at the start index, read signed and clamped
  into `[0, N − 1]`; with it, the pieces the index column is built from, each read at an index: the broadcast of a
  vector to a column, the wrap of negative indices, and the concatenation of edge endpoints with the self-loop iota.
-/
import Idealize.ShloMosaic.Lib.ValueIdx
import Idealize.ShloMosaic.Lib.Pipeline.Value
import Idealize.ShloMosaic.Lib.IdealHost
import Idealize.ShloMosaic.PureOps.ShapeOps
import Idealize.ShloMosaic.PureOps.Dims

noncomputable section

open Idealize.ShloMosaic Idealize.ShloMosaic.ValueIdx

namespace Idealize.ShloMosaic.GatherRows

variable {α : Type}

/-! ## The two row gathers -/

/-- The dimension numbers of a row gather from a flat operand `[N]` at start indices `[M, 1]` with result `[M]`:
    the one operand axis is collapsed and indexed, the index vector lies on axis 1. -/
abbrev rowGather1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a row gather from an operand `[N, C]` at start indices `[M, 1]` with result `[M, C]`:
    axis 0 is collapsed and indexed, axis 1 is taken whole as the result's offset axis. -/
abbrev rowGather2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row that entry `e` of the index column selects: the entry read as a signed integer and clamped into
    `[0, N − 1]`. -/
def src {N M w : Nat} (hN : 0 < N) (idx : IVec ⟨2, ![M, 1]⟩ w) (e : Fin M) : Fin N :=
  ⟨min (idx (ix2 e 0)).toInt.toNat (N - 1), by omega⟩

/-- The value of the selected row number is the clamped signed reading of the index entry. -/
theorem src_val {N M w : Nat} (hN : 0 < N) (idx : IVec ⟨2, ![M, 1]⟩ w) (e : Fin M) :
    (src hN idx e).val = min (idx (ix2 e 0)).toInt.toNat (N - 1) := rfl

/-- The start-indices position that result position `e` of a flat row gather reads is `(e, 0)`. -/
theorem rowGather1_siIdx {N M : Nat} (wf : GatherDims.WF ⟨1, ![N]⟩ ⟨2, ![M, 1]⟩ ⟨1, ![M]⟩ [] [0] [] [0] [] 1 ![1])
    (e : Fin M) (c : Fin (rowGather1 N M wf).startIndexMap.length) :
    (rowGather1 N M wf).siIdx (ix1 e) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- A flat row gather read at `e`: the operand at the row the index column's entry `e` selects. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGather1 N M wf) x idx (ix1 e) = x (ix1 (src hN idx e)) := by
  unfold Host.gather
  congr 1
  funext a
  obtain rfl : a = 0 := Subsingleton.elim _ _
  refine Fin.ext ?_
  show (rowGather1 N M wf).start (ix1 e) idx 0 + (rowGather1 N M wf).batchCoord (ix1 e) 0
      + (rowGather1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N M wf).startIndexMap from List.mem_singleton.mpr rfl)]
  rw [rowGather1_siIdx]
  rfl

/-- The start-indices position that result position `(e, f)` of a row gather reads is `(e, 0)`. -/
theorem rowGather2_siIdx {N M C : Nat}
    (wf : GatherDims.WF ⟨2, ![N, C]⟩ ⟨2, ![M, 1]⟩ ⟨2, ![M, C]⟩ [1] [0] [] [0] [] 1 ![1, C])
    (e : Fin M) (f : Fin C) (c : Fin (rowGather2 N M C wf).startIndexMap.length) :
    (rowGather2 N M C wf).siIdx (ix2 e f) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- The row coordinate that result position `(e, f)` of a row gather reads: the clamped start index alone. -/
theorem rowGather2_coord0 {N M C w : Nat} (hN : 0 < N)
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 0 + (rowGather2 N M C wf).batchCoord (ix2 e f) 0
      + (rowGather2 N M C wf).offCoord (ix2 e f) 0 = (src hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather2 N M C wf).startIndexMap from List.mem_singleton.mpr rfl)]
  rw [rowGather2_siIdx]
  rfl

/-- The column coordinate that result position `(e, f)` of a row gather reads: the offset `f` alone. -/
theorem rowGather2_coord1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 1 + (rowGather2 N M C wf).batchCoord (ix2 e f) 1
      + (rowGather2 N M C wf).offCoord (ix2 e f) 1 = f.val := by
  rw [GatherDims.batchCoord_eq_zero _ _ _ List.not_mem_nil]
  have hs : (rowGather2 N M C wf).start (ix2 e f) idx 1 = 0 := by
    unfold GatherDims.start
    rw [dif_neg (fun h => absurd (List.mem_singleton.mp h) (show ¬ (1 : Fin 2) = 0 by decide))]
  have hmem : (1 : Fin 2) ∈ (rowGather2 N M C wf).sKept :=
    (GatherDims.mem_sKept _ _).mpr ⟨fun h => absurd (List.mem_singleton.mp h) (show ¬ (1 : Fin 2) = 0 by decide), List.not_mem_nil⟩
  rw [hs]
  unfold GatherDims.offCoord
  rw [dif_pos hmem]
  simp only [Nat.zero_add, Nat.add_zero]
  rfl

/-- A row gather read at `(e, f)`: the operand's entry `f` of the row the index column's entry `e` selects. -/
theorem gather_row2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGather2 N M C wf) x idx (ix2 e f) = x (ix2 (src hN idx e) f) := by
  unfold Host.gather
  congr 1
  funext a
  refine Fin.ext ?_
  match a with
  | ⟨0, _⟩ => exact rowGather2_coord0 hN wf idx e f
  | ⟨1, _⟩ => exact rowGather2_coord1 wf idx e f

/-! ## The index column: a vector broadcast to `[M, 1]` -/

/-- The column of a vector read at `(e, 0)` is the vector's entry `e`. -/
theorem column_apply {M : Nat} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (ix2 e 0) = v (ix1 e) := by
  refine broadcastInDim_apply _ hb v _ (ix1 e) (fun a => ?_)
  obtain rfl : a = 0 := Subsingleton.elim _ _
  show e.val = if M = 1 then 0 else e.val
  split
  · next h => have := e.isLt; omega
  · rfl

/-! ## The wrap of negative indices leaves an in-range index alone -/

/-- A 32-bit word whose signed reading is not negative is not signed-less-than zero. -/
theorem cmpi_slt_zero_of_nonneg (x : BitVec 32) (h : 0 ≤ x.toInt) : IntOp.cmpi .slt x 0#32 = 0#1 := by
  have hf : x.slt 0#32 = false := by
    rw [Bool.eq_false_iff]
    intro hlt
    have h2 := BitVec.slt_iff_toInt_lt.mp hlt
    simp at h2
    omega
  show BitVec.ofBool (x.slt 0#32) = 0#1
  rw [hf]; rfl

/-- The wrapped index `select (v < 0) (v + n) v` read at `j` is `v`'s entry there when that entry is not negative. -/
theorem wrap_apply_of_nonneg {s : Shape} (v zs ns : IVec s 32) (hz : ∀ j, zs j = 0#32) (j : s.Idx)
    (h : 0 ≤ (v j).toInt) : select (cmpi .slt v zs) (addi v ns) v j = v j := by
  show Scalar.select (IntOp.cmpi .slt (v j) (zs j)) (IntOp.addi (v j) (ns j)) (v j) = v j
  rw [hz, cmpi_slt_zero_of_nonneg _ h, select_zero]

/-- An index entry whose signed reading is a row number `i < N` selects row `i` after the wrap of negative
    indices and the clamp: it is not negative, so the wrap keeps it, and it is at most `N − 1`, so the clamp does. -/
theorem src_wrap_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M) (i : Fin N)
    (h : (v (ix1 e)).toInt = (i.val : Int)) :
    src hN (broadcastInDim ⟨2, ![M, 1]⟩ ![0] hb (select (cmpi .slt v zs) (addi v ns) v)) e = i := by
  apply Fin.ext
  rw [src_val, column_apply, wrap_apply_of_nonneg v zs ns hz _ (by rw [h]; exact Int.natCast_nonneg _), h,
    Int.toNat_natCast]
  have := i.isLt
  omega

/-! ## The self-loop part of the index vector -/

/-- A natural number below `2³¹` as a 32-bit word reads back, signed, as itself. -/
theorem toInt_ofNat_of_lt (n : Nat) (h : n < 2 ^ 31) : (BitVec.ofNat 32 n).toInt = (n : Int) := by
  rw [BitVec.toInt_eq_toNat_cond]
  simp only [BitVec.toNat_ofNat]
  have hm : n % 2 ^ 32 = n := Nat.mod_eq_of_lt (by omega)
  rw [hm, if_pos (by omega)]

/-- The concatenation of `E` edge endpoints with the iota over the `N` nodes, read at position `E + i`, is `i`. -/
theorem selfloop_apply {E N M : Nat} (a : IVec ⟨1, ![E]⟩ 32)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, iotaInDim ⟨1, ![N]⟩ 32 0⟩] hc
      (ix1 ⟨E + i.val, by have := i.isLt; omega⟩) = BitVec.ofNat 32 i.val := by
  rw [concatenate_pair_apply_right 0 a (iotaInDim ⟨1, ![N]⟩ 32 0) hc (ix1 ⟨E + i.val, by have := i.isLt; omega⟩)
    rfl rfl (ix1 i) (fun b hb => absurd (Subsingleton.elim _ _) hb) (by show i.val + E = E + i.val; omega)]
  rfl

/-- Read signed, that entry is the node number `i`, while the node count is below `2³¹`. -/
theorem selfloop_toInt {E N M : Nat} (a : IVec ⟨1, ![E]⟩ 32)
    (hc : Shape.Concatenates [(⟨1, ![E]⟩ : Shape), ⟨1, ![N]⟩] ⟨1, ![M]⟩ 0) (hM : M = E + N) (hN32 : N < 2 ^ 31)
    (i : Fin N) :
    (concatenate ⟨1, ![M]⟩ 0 [⟨⟨1, ![E]⟩, a⟩, ⟨⟨1, ![N]⟩, iotaInDim ⟨1, ![N]⟩ 32 0⟩] hc
      (ix1 ⟨E + i.val, by have := i.isLt; omega⟩)).toInt = (i.val : Int) := by
  rw [selfloop_apply a hc hM i]
  exact toInt_ofNat_of_lt _ (by have := i.isLt; omega)

/-! ## Further readings of the same pieces -/

/-- A concatenation of two flat vectors of lengths `E` and `N`, read at a position `e < E`, is the first vector's
    entry `e`. -/
theorem concat_left_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (e : Fin E) :
    concatenate ⟨1, ![M]⟩ 0 [⟨⟨1, ![E]⟩, a⟩, ⟨⟨1, ![N]⟩, b⟩] hc (ix1 ⟨e.val, by have := e.isLt; omega⟩) = a (ix1 e) := by
  refine concatenate_pair_apply_left 0 a b hc _ rfl (ix1 e) (fun c => ?_)
  obtain rfl : c = 0 := Subsingleton.elim _ _
  rfl

/-- A concatenation of two flat vectors of lengths `E` and `N`, read at position `E + i` with `i < N`, is the second
    vector's entry `i`. -/
theorem concat_right_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, b⟩] hc (ix1 ⟨E + i.val, by have := i.isLt; omega⟩) = b (ix1 i) :=
  concatenate_pair_apply_right 0 a b hc (ix1 ⟨E + i.val, by have := i.isLt; omega⟩) rfl rfl (ix1 i)
    (fun c hc' => absurd (Subsingleton.elim _ _) hc') (by show i.val + E = E + i.val; omega)

/-- An index entry whose signed reading lies in `[0, N)` selects, after the wrap of negative indices and the clamp,
    the row whose number is that reading. -/
theorem src_wrap_val_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M)
    (h0 : 0 ≤ (v (ix1 e)).toInt) (h1 : (v (ix1 e)).toInt < (N : Int)) :
    (src hN (broadcastInDim ⟨2, ![M, 1]⟩ ![0] hb (select (cmpi .slt v zs) (addi v ns) v)) e).val
      = (v (ix1 e)).toInt.toNat := by
  rw [src_val, column_apply, wrap_apply_of_nonneg v zs ns hz _ h0]
  omega

end Idealize.ShloMosaic.GatherRows

end
-- ==== Proof.LibScatterRows.lean ====
/-
  ROW SCATTERS AND SUMS ON THE EXTENDED REALS.

  A scatter whose body is an addition, with one row number per update row, adds to each operand row the sum of the
  update rows whose row number is that row; rows whose number is out of range are dropped. The first part states this
  for a flat operand and for an operand of rows of a fixed width, on generic extents. The second part collects the
  distributive laws of finite sums on the extended reals that hold without a finiteness hypothesis: a constant summed
  is the count times the constant, a nonnegative real factor moves through a sum, and the node law that rewrites
  "each incoming edge contributes the node's own row plus a normalised source row" as "in-degree times the own row plus
  the node's factor times the sum of the pre-scaled source rows".
-/
import Idealize.ShloMosaic.Lib.ValueIdx
import Idealize.ShloMosaic.PureOps.Ideal
import Idealize.ShloMosaic.PureOps.Ideal.Laws
import Idealize.ShloMosaic.PureOps.Dims
import Mathlib.Data.EReal.Operations

noncomputable section

open scoped BigOperators
open Idealize.ShloMosaic Idealize.ShloMosaic.ValueIdx

namespace Idealize.ShloMosaic.ScatterRows

/-! ## Row scatters -/

section Rows

/-- An update lands at operand index `i` exactly when, on every operand axis, its start plus its window coordinate
    is that axis's coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only []
      omega
    · intro hi
      funext a
      apply Fin.ext
      have := hi a
      simp only []
      omega
  · constructor
    · intro h'; cases h'
    · intro hi
      refine absurd (fun a => ?_) h
      have := hi a
      have := (i a).isLt
      omega

/-- The dimension numbers of a scatter of `M` scalars into a flat operand of `N` elements, one row number per
    update. -/
abbrev rowScatter1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a scatter of `M` rows of width `C` into an operand of `N` rows of width `C`, one row
    number per update row. -/
abbrev rowScatter2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand row an edge's row number names: the number read signed, when it lies in `[0, N)`; none otherwise. -/
def tgt {N M w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- An edge's target is row `i` exactly when its row number, read signed, is `i`. -/
theorem tgt_eq_some_iff {N M w : Nat} (idx : IVec ⟨2, ![M, 1]⟩ w) (e : Fin M) (i : Fin N) :
    tgt idx e = some i ↔ (idx (ix2 e 0)).toInt = (i.val : Int) := by
  unfold tgt
  split_ifs with h
  · rw [Option.some.injEq, Fin.ext_iff]
    simp only []
    omega
  · constructor
    · intro h'; cases h'
    · intro hi
      have := i.isLt
      exact absurd ⟨by omega, by omega⟩ h

end Rows

section Rows1
variable {N M w : Nat} (wf : ScatterDims.WF ⟨1, ![N]⟩ ⟨2, ![M, 1]⟩ ⟨1, ![M]⟩ [] [0] [0] 1)

/-- In the flat row scatter, update `j` reads its start on the one operand axis at the scatter-indices entry
    `[j, 0]`, signed. -/
theorem rowScatter1_start (j : (⟨1, ![M]⟩ : Shape).Idx) (idx : IVec ⟨2, ![M, 1]⟩ w) :
    (rowScatter1 N M wf).start j idx 0 = (idx (ix2 (n0 := M) (j 0) 0)).toInt := by
  unfold ScatterDims.start
  rw [dif_pos (show (0 : Fin 1) ∈ (rowScatter1 N M wf).scatterDimsToOperandDims from List.mem_singleton.mpr rfl)]
  have hsi : (rowScatter1 N M wf).siIdx j ⟨List.idxOf (0 : Fin 1) (rowScatter1 N M wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the flat row scatter the one operand axis is inserted, so the window coordinate on it is zero. -/
theorem rowScatter1_window (j : (⟨1, ![M]⟩ : Shape).Idx) : (rowScatter1 N M wf).window j 0 = 0 := by
  unfold ScatterDims.window
  rw [dif_neg]
  intro h
  simp [ScatterDims.sKept, Shape.kept] at h

/-- In the flat row scatter, update `j` lands at operand index `i` exactly when edge `j`'s target is row `i`. -/
theorem rowScatter1_resultIdx? (idx : IVec ⟨2, ![M, 1]⟩ w) (j : (⟨1, ![M]⟩ : Shape).Idx)
    (i : (⟨1, ![N]⟩ : Shape).Idx) :
    (rowScatter1 N M wf).resultIdx? j idx = some i ↔ tgt idx (j 0) = some (i 0) := by
  refine (resultIdx?_eq_some_iff _ j idx i).trans (Iff.trans ?_ (tgt_eq_some_iff idx (j 0) (i 0)).symm)
  constructor
  · intro h
    have h0 := h 0
    rw [rowScatter1_start, rowScatter1_window, Nat.cast_zero, add_zero] at h0
    exact h0
  · intro h a
    obtain rfl : a = 0 := Subsingleton.elim _ _
    rw [rowScatter1_start, rowScatter1_window, Nat.cast_zero, add_zero]
    exact h

end Rows1

section Rows2
variable {N M C w : Nat} (wf : ScatterDims.WF ⟨2, ![N, C]⟩ ⟨2, ![M, 1]⟩ ⟨2, ![M, C]⟩ [1] [0] [0] 1)

/-- In the scatter of rows, update `j` reads its start on the row axis at the scatter-indices entry `[j₀, 0]`,
    signed. -/
theorem rowScatter2_start0 (j : (⟨2, ![M, C]⟩ : Shape).Idx) (idx : IVec ⟨2, ![M, 1]⟩ w) :
    (rowScatter2 N M C wf).start j idx 0 = (idx (ix2 (n0 := M) (j 0) 0)).toInt := by
  unfold ScatterDims.start
  rw [dif_pos (show (0 : Fin 2) ∈ (rowScatter2 N M C wf).scatterDimsToOperandDims from List.mem_singleton.mpr rfl)]
  have hsi : (rowScatter2 N M C wf).siIdx j ⟨List.idxOf (0 : Fin 2) (rowScatter2 N M C wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the scatter of rows the start on the column axis is zero: the row numbers name no column. -/
theorem rowScatter2_start1 (j : (⟨2, ![M, C]⟩ : Shape).Idx) (idx : IVec ⟨2, ![M, 1]⟩ w) :
    (rowScatter2 N M C wf).start j idx 1 = 0 := by
  unfold ScatterDims.start
  rw [dif_neg]
  intro h
  simp at h

/-- In the scatter of rows the row axis is inserted, so the window coordinate on it is zero. -/
theorem rowScatter2_window0 (j : (⟨2, ![M, C]⟩ : Shape).Idx) : (rowScatter2 N M C wf).window j 0 = 0 := by
  unfold ScatterDims.window
  rw [dif_neg]
  intro h
  simp [ScatterDims.sKept, Shape.kept] at h

/-- In the scatter of rows the window coordinate on the column axis is the update's column. -/
theorem rowScatter2_window1 (j : (⟨2, ![M, C]⟩ : Shape).Idx) : (rowScatter2 N M C wf).window j 1 = (j 1).val := by
  unfold ScatterDims.window
  have h1 : (1 : Fin 2) ∈ (rowScatter2 N M C wf).sKept := by
    simp [ScatterDims.sKept, Shape.kept]
  rw [dif_pos h1]
  rfl

/-- In the scatter of rows, update `j` lands at operand index `i` exactly when edge `j₀`'s target is row `i₀` and
    the columns agree. -/
theorem rowScatter2_resultIdx? (idx : IVec ⟨2, ![M, 1]⟩ w) (j : (⟨2, ![M, C]⟩ : Shape).Idx)
    (i : (⟨2, ![N, C]⟩ : Shape).Idx) :
    (rowScatter2 N M C wf).resultIdx? j idx = some i ↔ tgt idx (j 0) = some (i 0) ∧ (j 1).val = (i 1).val := by
  refine (resultIdx?_eq_some_iff _ j idx i).trans
    (Iff.trans ?_ (and_congr_left' (tgt_eq_some_iff idx (j 0) (i 0))).symm)
  constructor
  · intro h
    have h0 := h 0
    have h1 := h 1
    rw [rowScatter2_start0, rowScatter2_window0, Nat.cast_zero, add_zero] at h0
    rw [rowScatter2_start1, rowScatter2_window1, zero_add] at h1
    exact ⟨h0, by exact_mod_cast h1⟩
  · rintro ⟨h0, h1⟩ a
    match a with
    | ⟨0, _⟩ =>
      show (rowScatter2 N M C wf).start j idx 0 + ((rowScatter2 N M C wf).window j 0 : Int) = ((i 0).val : Int)
      rw [rowScatter2_start0, rowScatter2_window0, Nat.cast_zero, add_zero]
      exact h0
    | ⟨1, _⟩ =>
      show (rowScatter2 N M C wf).start j idx 1 + ((rowScatter2 N M C wf).window j 1 : Int) = ((i 1).val : Int)
      rw [rowScatter2_start1, rowScatter2_window1, zero_add]
      exact_mod_cast h1

end Rows2

section RowSums
variable {N M w : Nat}

/-- THE FLAT ROW SCATTER READ AT ROW `i`: the operand there plus the sum of the updates of the edges whose target is
    row `i`. -/
theorem hostScatterAdd_row1 (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (i : Fin N) :
    Ideal.hostScatterAdd (rowScatter1 N M wf) x idx upd (ix1 i)
      = x (ix1 i) + ∑ e ∈ Finset.univ.filter (fun e : Fin M => tgt idx e = some i), upd (ix1 e) := by
  unfold Ideal.hostScatterAdd
  congr 1
  symm
  refine Finset.sum_bij (fun e _ => ix1 e) ?_ ?_ ?_ ?_
  · intro e he
    simp only [Finset.mem_filter, Finset.mem_univ, true_and] at he ⊢
    exact (rowScatter1_resultIdx? wf idx (ix1 e) (ix1 i)).mpr he
  · intro a _ b _ h
    exact congrFun h 0
  · intro j hj
    simp only [Finset.mem_filter, Finset.mem_univ, true_and] at hj
    exact ⟨j 0, Finset.mem_filter.mpr ⟨Finset.mem_univ _, (rowScatter1_resultIdx? wf idx j (ix1 i)).mp hj⟩,
      (eq_ix1 j).symm⟩
  · intro e _
    rfl

/-- THE SCATTER OF ROWS READ AT ROW `i`, COLUMN `f`: the operand there plus the sum, over the edges whose target is
    row `i`, of their update rows' column `f`. -/
theorem hostScatterAdd_row2 {C : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (f : Fin C) :
    Ideal.hostScatterAdd (rowScatter2 N M C wf) x idx upd (ix2 i f)
      = x (ix2 i f) + ∑ e ∈ Finset.univ.filter (fun e : Fin M => tgt idx e = some i), upd (ix2 e f) := by
  unfold Ideal.hostScatterAdd
  congr 1
  symm
  refine Finset.sum_bij (fun e _ => ix2 e f) ?_ ?_ ?_ ?_
  · intro e he
    simp only [Finset.mem_filter, Finset.mem_univ, true_and] at he ⊢
    exact (rowScatter2_resultIdx? wf idx (ix2 e f) (ix2 i f)).mpr ⟨he, rfl⟩
  · intro a _ b _ h
    exact congrFun h 0
  · intro j hj
    simp only [Finset.mem_filter, Finset.mem_univ, true_and] at hj
    obtain ⟨h0, h1⟩ := (rowScatter2_resultIdx? wf idx j (ix2 i f)).mp hj
    refine ⟨j 0, Finset.mem_filter.mpr ⟨Finset.mem_univ _, h0⟩, ?_⟩
    funext a
    match a with
    | ⟨0, _⟩ => rfl
    | ⟨1, _⟩ => exact (Fin.ext h1).symm
  · intro e _
    rfl

end RowSums

/-! ## Finite sums on the extended reals -/

section Sums
variable {ι : Type} [DecidableEq ι]

/-- A sum of ones over a finite set is nonnegative. -/
theorem sum_one_nonneg (S : Finset ι) : (0 : EReal) ≤ ∑ _e ∈ S, (1 : EReal) :=
  Finset.sum_nonneg fun _ _ => zero_le_one

/-- A constant summed over a finite set is the number of its elements, as a sum of ones, times the constant. -/
theorem sum_const_eq (S : Finset ι) (a : EReal) : ∑ _e ∈ S, a = (∑ _e ∈ S, (1 : EReal)) * a := by
  induction S using Finset.induction_on with
  | empty => simp
  | insert i S hi ih =>
    rw [Finset.sum_insert hi, Finset.sum_insert hi, ih,
      EReal.right_distrib_of_nonneg zero_le_one (sum_one_nonneg S), one_mul]

/-- A nonnegative real factor distributes over a finite sum of extended reals. -/
theorem coe_mul_sum (d : ℝ) (hd : 0 ≤ d) (S : Finset ι) (x : ι → EReal) :
    (d : EReal) * ∑ e ∈ S, x e = ∑ e ∈ S, (d : EReal) * x e := by
  induction S using Finset.induction_on with
  | empty => simp
  | insert i S hi ih =>
    rw [Finset.sum_insert hi, Finset.sum_insert hi,
      EReal.left_distrib_of_nonneg_of_ne_top (EReal.coe_nonneg.mpr hd) (EReal.coe_ne_top d), ih]

/-- THE NODE LAW: summing, over a node's incoming edges, the node's own row plus the edge's weight times the node's
    nonnegative real factor times the edge's source row gives the in-degree times the own row plus the node's factor
    times the sum of the source rows each scaled by its edge's weight. -/
theorem node_law (S : Finset ι) (a : EReal) (d : ℝ) (hd : 0 ≤ d) (q b : ι → EReal) :
    ∑ e ∈ S, (a + (q e * (d : EReal)) * b e)
      = (∑ _e ∈ S, (1 : EReal)) * a + (d : EReal) * ∑ e ∈ S, b e * q e := by
  rw [Finset.sum_add_distrib, sum_const_eq S a, coe_mul_sum d hd S]
  congr 1
  refine Finset.sum_congr rfl fun e _ => ?_
  rw [mul_comm (q e) (d : EReal), mul_assoc, mul_comm (q e) (b e)]

end Sums

end Idealize.ShloMosaic.ScatterRows

end
-- ==== Proof.LibRelGraphHost.lean ====
/-
  The host's spellings of the network's pieces, each as the whole-matrix function it denotes over the extended reals.

  A gather of rows at a column of row numbers is `gatherRows` at the selector the column names; a scatter with an
  addition body into zeros is `scatterRows` at the targets the column names, and of ones into zeros it is the vector
  of degrees. One over, and the inverse square root of, the degree taken at least one are `invDeg` and `rsqrtDeg`
  once the vector is read as a one-column matrix. A vector broadcast or reshaped to a column is that one-column matrix.
  A product with a column broadcast along the rows is `rowScale`; a contraction of an entry-by-entry product is `proj`;
  the clamped sums and products of these are `upd` and `spectral`.
-/
import proofs.«110422_j61856118997742_2_alg».proof.Proof.LibRelGraphNet
import proofs.«110422_j61856118997742_2_alg».proof.Proof.LibGatherRows
import proofs.«110422_j61856118997742_2_alg».proof.Proof.LibScatterRows
import proofs.«110422_j61856118997742_2_alg».proof.Proof.LibLayers

noncomputable section

namespace Cert.CompGcn.HostForms

open scoped BigOperators
open Idealize.ShloMosaic Idealize.ShloMosaic.ValueIdx Cert.Layers Cert.LibMatProd Cert.CompGcn
open Idealize.ShloMosaic.GatherRows Idealize.ShloMosaic.ScatterRows

variable {N M C K : ℕ}

/-! ## Gathers of rows -/

/-- A gather of rows of a matrix at a column of row numbers fetches the rows the column selects. -/
theorem gather2_eq (hN : 0 < N)
    (wf : GatherDims.WF ⟨2, ![N, C]⟩ ⟨2, ![M, 1]⟩ ⟨2, ![M, C]⟩ [1] [0] [] [0] [] 1 ![1, C])
    (x : Mat N C) (col : IVec ⟨2, ![M, 1]⟩ 32) :
    Host.gather (rowGather2 N M C wf) x col = gatherRows x (GatherRows.src hN col) := by
  funext j
  obtain ⟨p, q, rfl⟩ : ∃ (p : Fin M) (q : Fin C), j = ix2 p q := ⟨j 0, j 1, eq_ix2 j⟩
  exact gather_row2_apply hN wf x col p q

/-- A gather of entries of a vector at a column of row numbers, as a one-column matrix, fetches the rows of the
    vector's one-column matrix. -/
theorem gather1_eq (hN : 0 < N)
    (wf : GatherDims.WF ⟨1, ![N]⟩ ⟨2, ![M, 1]⟩ ⟨1, ![M]⟩ [] [0] [] [0] [] 1 ![1])
    (v : (⟨1, ![N]⟩ : Shape).Idx → EReal) (col : IVec ⟨2, ![M, 1]⟩ 32) :
    colOf (Host.gather (rowGather1 N M wf) v col) = gatherRows (colOf v) (GatherRows.src hN col) := by
  funext j
  obtain ⟨p, q, rfl⟩ : ∃ (p : Fin M) (q : Fin 1), j = ix2 p q := ⟨j 0, j 1, eq_ix2 j⟩
  exact gather_row1_apply hN wf v col p

/-! ## Scatters into zeros -/

/-- A scatter of rows with an addition body into a matrix of zeros sums the rows at their targets. -/
theorem scatter2_eq (wf : ScatterDims.WF ⟨2, ![N, C]⟩ ⟨2, ![M, 1]⟩ ⟨2, ![M, C]⟩ [1] [0] [0] 1)
    (h0 : (⟨0, ![]⟩ : Shape).BroadcastsInDim ⟨2, ![N, C]⟩ ![]) (col : IVec ⟨2, ![M, 1]⟩ 32) (u : Mat M C) :
    Host.scatterAdd (F := Ideal) (rowScatter2 N M C wf)
      (broadcastInDim ⟨2, ![N, C]⟩ ![] h0 (constant (F := Ideal) ⟨0, ![]⟩ .f32 0x00000000#32)) col u
      = scatterRows (ScatterRows.tgt col) u := by
  funext j
  obtain ⟨p, q, rfl⟩ : ∃ (p : Fin N) (q : Fin C), j = ix2 p q := ⟨j 0, j 1, eq_ix2 j⟩
  refine (hostScatterAdd_row2 wf _ col u p q).trans ?_
  rw [broadcastInDim_scalar_apply]
  rfl

/-- A scatter of ones with an addition body into a vector of zeros counts the edges at each target. -/
theorem scatter1_ones_eq (wf : ScatterDims.WF ⟨1, ![N]⟩ ⟨2, ![M, 1]⟩ ⟨1, ![M]⟩ [] [0] [0] 1)
    (h0N : (⟨0, ![]⟩ : Shape).BroadcastsInDim ⟨1, ![N]⟩ ![]) (h0M : (⟨0, ![]⟩ : Shape).BroadcastsInDim ⟨1, ![M]⟩ ![])
    (col : IVec ⟨2, ![M, 1]⟩ 32) :
    Host.scatterAdd (F := Ideal) (rowScatter1 N M wf)
      (broadcastInDim ⟨1, ![N]⟩ ![] h0N (constant (F := Ideal) ⟨0, ![]⟩ .f32 0x00000000#32)) col
      (broadcastInDim ⟨1, ![M]⟩ ![] h0M (constant (F := Ideal) ⟨0, ![]⟩ .f32 0x3F800000#32))
      = degVec (ScatterRows.tgt col) := by
  funext j
  obtain ⟨p, rfl⟩ : ∃ p : Fin N, j = ix1 p := ⟨j 0, eq_ix1 j⟩
  refine (hostScatterAdd_row1 wf _ col _ p).trans ?_
  rw [broadcastInDim_scalar_apply]
  simp only [broadcastInDim_scalar_apply]
  rfl

/-! ## The degree normalisations -/

/-- One over the degree vector taken at least one, as a one-column matrix. -/
theorem invDeg_vec (h0 : (⟨0, ![]⟩ : Shape).BroadcastsInDim ⟨1, ![N]⟩ ![]) (tgt : Fin M → Option (Fin N)) :
    colOf (Host.divf (F := Ideal) (broadcastInDim ⟨1, ![N]⟩ ![] h0 (constant (F := Ideal) ⟨0, ![]⟩ .f32 0x3F800000#32))
      (maximumf (degVec tgt) (broadcastInDim ⟨1, ![N]⟩ ![] h0 (constant (F := Ideal) ⟨0, ![]⟩ .f32 0x3F800000#32))))
      = invDeg tgt := by
  funext j
  show Ideal.div (broadcastInDim ⟨1, ![N]⟩ ![] h0 (constant (F := Ideal) ⟨0, ![]⟩ .f32 0x3F800000#32) (ix1 (j 0)))
      (max (degVec tgt (ix1 (j 0)))
        (broadcastInDim ⟨1, ![N]⟩ ![] h0 (constant (F := Ideal) ⟨0, ![]⟩ .f32 0x3F800000#32) (ix1 (j 0)))) = _
  rw [broadcastInDim_scalar_apply]
  rfl

/-- The inverse square root of the degree vector taken at least one, as a one-column matrix. -/
theorem rsqrtDeg_vec (h0 : (⟨0, ![]⟩ : Shape).BroadcastsInDim ⟨1, ![N]⟩ ![]) (tgt : Fin M → Option (Fin N)) :
    colOf (Host.rsqrt (F := Ideal)
      (maximumf (degVec tgt) (broadcastInDim ⟨1, ![N]⟩ ![] h0 (constant (F := Ideal) ⟨0, ![]⟩ .f32 0x3F800000#32))))
      = rsqrtDeg tgt := by
  funext j
  show Ideal.rsqrt (max (degVec tgt (ix1 (j 0)))
        (broadcastInDim ⟨1, ![N]⟩ ![] h0 (constant (F := Ideal) ⟨0, ![]⟩ .f32 0x3F800000#32) (ix1 (j 0)))) = _
  rw [broadcastInDim_scalar_apply]
  rfl

/-! ## A vector as a column -/

/-- A vector broadcast to a column is its one-column matrix. -/
theorem col_bcast (h1 : (⟨1, ![M]⟩ : Shape).BroadcastsInDim ⟨2, ![M, 1]⟩ ![0]) (v : (⟨1, ![M]⟩ : Shape).Idx → EReal) :
    broadcastInDim ⟨2, ![M, 1]⟩ ![0] h1 v = colOf v := by
  funext j
  obtain ⟨p, q, rfl⟩ : ∃ (p : Fin M) (q : Fin 1), j = ix2 p q := ⟨j 0, j 1, eq_ix2 j⟩
  obtain rfl : q = 0 := Subsingleton.elim _ _
  exact column_apply h1 v p

/-- A vector reshaped to a column is its one-column matrix. -/
theorem col_reshape (h : (⟨1, ![M]⟩ : Shape).ShapeCasts ⟨2, ![M, 1]⟩) (v : (⟨1, ![M]⟩ : Shape).Idx → EReal) :
    shapeCast ⟨2, ![M, 1]⟩ v h = colOf v := by
  funext j
  obtain ⟨p, q, rfl⟩ : ∃ (p : Fin M) (q : Fin 1), j = ix2 p q := ⟨j 0, j 1, eq_ix2 j⟩
  refine shapeCast_apply v h _ (ix1 p) ?_
  rw [Shape.rowMajor_val_two, Shape.rowMajor_val_one]
  show p.val = p.val * 1 + q.val
  have := q.isLt
  omega

/-! ## Layers -/

/-- A product with a column broadcast along the rows scales every row by its entry of the column. -/
theorem host_rowScale (hb : (⟨2, ![M, 1]⟩ : Shape).BroadcastsInDim ⟨2, ![M, N]⟩ ![0, 1])
    (a : FVec Ideal ⟨2, ![M, N]⟩ .f32) (s : FVec Ideal ⟨2, ![M, 1]⟩ .f32) :
    mulf a (broadcastInDim ⟨2, ![M, N]⟩ ![0, 1] hb s) = rowScale (a : Mat M N) (s : Mat M 1) := by
  funext j
  obtain ⟨p, q, rfl⟩ : ∃ (p : Fin M) (q : Fin N), j = ix2 p q := ⟨j 0, j 1, eq_ix2 j⟩
  rw [mulf_apply]
  refine congrArg (a (ix2 p q) * ·) ?_
  refine broadcastInDim_apply _ hb s _ (ix2 p (0 : Fin 1)) (fun ax => ?_)
  match ax with
  | ⟨0, _⟩ =>
    show p.val = if M = 1 then 0 else p.val
    split
    · have := p.isLt; omega
    · rfl
  | ⟨1, _⟩ =>
    show (0 : ℕ) = if (1 : ℕ) = 1 then 0 else q.val
    rw [if_pos rfl]

/-- A contraction of an entry-by-entry product with a weight is the projection of the composed rows. -/
theorem host_proj (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a b : FVec Ideal ⟨2, ![M, K]⟩ .f32) (w : FVec Ideal ⟨2, ![K, N]⟩ .f32) :
    Host.dotGeneral (F := Ideal) d none (mulf a b) w = proj (a : Mat M K) (b : Mat M K) (w : Mat K N) :=
  host_dot_eq d h1 h2 h3 h4 h5 h6 (mulf a b) w

/-- The scaled aggregate plus the node's own projected rows, clamped: a node update. -/
theorem host_upd (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h0 : (⟨0, ![]⟩ : Shape).BroadcastsInDim ⟨2, ![M, N]⟩ ![])
    (hb : (⟨2, ![M, 1]⟩ : Shape).BroadcastsInDim ⟨2, ![M, N]⟩ ![0, 1])
    (agg : FVec Ideal ⟨2, ![M, N]⟩ .f32) (h : FVec Ideal ⟨2, ![M, K]⟩ .f32) (w : FVec Ideal ⟨2, ![K, N]⟩ .f32)
    (s : FVec Ideal ⟨2, ![M, 1]⟩ .f32) :
    maximumf (addf (mulf agg (broadcastInDim ⟨2, ![M, N]⟩ ![0, 1] hb s)) (Host.dotGeneral (F := Ideal) d none h w))
      (broadcastInDim ⟨2, ![M, N]⟩ ![] h0 (constant (F := Ideal) ⟨0, ![]⟩ .f32 0x00000000#32))
      = upd (agg : Mat M N) (h : Mat M K) (w : Mat K N) (s : Mat M 1) := by
  refine (host_clamp _ h0).trans ?_
  rw [host_rowScale hb, host_dot_eq d h1 h2 h3 h4 h5 h6]
  rfl

/-- The scaled aggregate projected and clamped: the spectral read-out. -/
theorem host_spectral (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h0 : (⟨0, ![]⟩ : Shape).BroadcastsInDim ⟨2, ![M, N]⟩ ![])
    (hb : (⟨2, ![M, 1]⟩ : Shape).BroadcastsInDim ⟨2, ![M, K]⟩ ![0, 1])
    (agg : FVec Ideal ⟨2, ![M, K]⟩ .f32) (s : FVec Ideal ⟨2, ![M, 1]⟩ .f32) (w : FVec Ideal ⟨2, ![K, N]⟩ .f32) :
    maximumf (Host.dotGeneral (F := Ideal) d none (mulf agg (broadcastInDim ⟨2, ![M, K]⟩ ![0, 1] hb s)) w)
      (broadcastInDim ⟨2, ![M, N]⟩ ![] h0 (constant (F := Ideal) ⟨0, ![]⟩ .f32 0x00000000#32))
      = spectral (agg : Mat M K) (s : Mat M 1) (w : Mat K N) := by
  refine (host_clamp _ h0).trans ?_
  rw [host_dot_eq d h1 h2 h3 h4 h5 h6, host_rowScale hb]
  rfl

end Cert.CompGcn.HostForms

end
-- ==== Proof.Region0.lean ====
import proofs.«110422_j61856118997742_2_alg».proof.Proof.Gen.KernelIdeal.Frame
import proofs.«110422_j61856118997742_2_alg».proof.Proof.LibRelGraphNet
import Idealize.ShloMosaic.Lib.Pipeline.Value

set_option maxRecDepth 16384

noncomputable section

namespace Cert.CompGcn.Region0

open Cert.KernelIdeal Cert.KernelIdeal.Gen Cert.CompGcn Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's arithmetic on its blocks: the entry by entry product of the two row blocks, times the weights. -/
theorem pay (x0 x1 : Vec Ideal S10000x256 .f32) (x2 : Vec Ideal S256x128 .bf16) :
    k0_pay1 x0 x1 x2 = proj (x0 : Mat 10000 256) (x1 : Mat 10000 256) (x2 : Mat 256 128) := by
  unfold k0_pay1
  simp only [shapeCast_self]
  exact unit_prod dot_S10000x256_S256x128_S10000x128_1_0_0_1_n_n rfl rfl rfl rfl rfl rfl _ _

/-- Where each window's block sits at point t: the row windows at block row t, the weights at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem rows_le (t : Fin cfg0.N) : t.val * 10000 + 10000 ≤ 500000 := by
  have h : t.val < 50 := t.isLt
  omega

/-- The first operand's block at point t is rows 10000 t, …, 10000 t + 9999 of its array. -/
theorem blk0 (c : Dev nD) (t : Fin cfg0.N) :
    iblk0 V c 0 t = band 10000 (t.val * 10000) (rows_le t) (V c main_v46 : Mat 500000 256) := by
  obtain ⟨e0, e1, -, -, -, -, -, -⟩ := index_maps t
  funext y
  show V c main_v46 (((cfg0.win 0).blk t).view.emb y) = _
  symm
  refine band_apply 10000 (t.val * 10000) (rows_le t) _ y _ ?_ ?_
  · show win0_0.index t (0 : Fin 2) * 10000 + 1 * (y 0).val = t.val * 10000 + (y 0).val
    omega
  · show win0_0.index t (1 : Fin 2) * 256 + 1 * (y 1).val = (y 1).val
    omega

/-- The second operand's block at point t is the same band of rows of its array. -/
theorem blk1 (c : Dev nD) (t : Fin cfg0.N) :
    iblk0 V c 1 t = band 10000 (t.val * 10000) (rows_le t) (V c main_v33 : Mat 500000 256) := by
  obtain ⟨-, -, e0, e1, -, -, -, -⟩ := index_maps t
  funext y
  show V c main_v33 (((cfg0.win 1).blk t).view.emb y) = _
  symm
  refine band_apply 10000 (t.val * 10000) (rows_le t) _ y _ ?_ ?_
  · show win0_1.index t (0 : Fin 2) * 10000 + 1 * (y 0).val = t.val * 10000 + (y 0).val
    omega
  · show win0_1.index t (1 : Fin 2) * 256 + 1 * (y 1).val = (y 1).val
    omega

/-- The weights' block at every point is the whole weight matrix. -/
theorem blk2 (c : Dev nD) (t : Fin cfg0.N) : iblk0 V c 2 t = (V c main_v35 : Mat 256 128) := by
  obtain ⟨-, -, -, -, e0, e1, -, -⟩ := index_maps t
  funext y
  show V c main_v35 (((cfg0.win 2).blk t).view.emb y) = V c main_v35 y
  refine congrArg (V c main_v35) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The result's block at point t, read off any whole matrix, is that band of rows of the matrix. -/
theorem blk_out (t : Fin cfg0.N) (G : Mat 500000 128) :
    ((cfg0.win 3).blk t).view.read (Elt Ideal) G = band 10000 (t.val * 10000) (rows_le t) G := by
  obtain ⟨-, -, -, -, -, -, e0, e1⟩ := index_maps t
  funext y
  show G (((cfg0.win 3).blk t).view.emb y) = _
  symm
  refine band_apply 10000 (t.val * 10000) (rows_le t) _ y _ ?_ ?_
  · show win0_3.index t (0 : Fin 2) * 10000 + 1 * (y 0).val = t.val * 10000 + (y 0).val
    omega
  · show win0_3.index t (1 : Fin 2) * 128 + 1 * (y 1).val = (y 1).val
    omega

/-- What point t writes back is its band of rows of the projected product of the whole arrays. -/
theorem flushed_eq (c : Dev nD) (t : Fin cfg0.N) :
    (dat0 (F := Ideal) V c).flushed 3 t
      = ((cfg0.win 3).blk t).view.read (Elt Ideal) (proj (V c main_v46) (V c main_v33) (V c main_v35)) := by
  show (cfg0.win 3).cut (grid0.coords t) ((dat0 V c).after 3 t) = _
  rw [after0_3]
  unfold out0_3
  rw [View.canon_unit_zero zeros]
  simp only [View.ld_unit_zero (S := S10000x256) zeros, View.ld_unit_zero (S := S256x128) zeros]
  rw [pay, blk0, blk1, blk2, blk_out, band_proj]
  rfl

/-- An index of the array is in point t's block iff each coordinate is in the block's range on its axis. -/
theorem mem_blk (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v47).slice (win0_3.rect t)).set ↔ _
  rw [View.set_slice_whole, Rect.mem_set_unit]
  exact Iff.rfl

/-- Every row of the array is in the block of the point numbered by the row over 10000. -/
theorem cover (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  let t : Fin cfg0.N := ⟨(i 0).val / 10000, by show (i 0).val / 10000 < 50; omega⟩
  obtain ⟨-, -, -, -, -, -, e0, e1⟩ := index_maps t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the region the result array is the two operand arrays' entry by entry product times the weights. -/
theorem arr (c : Dev nD) :
    (dat0 (F := Ideal) V c).arrAt 3 cfg0.N = proj (V c main_v46) (V c main_v33) (V c main_v35) :=
  (dat0 (F := Ideal) V c).arrAt_eq_of_cover 3 (proj (V c main_v46) (V c main_v33) (V c main_v35))
    (fun t _ => flushed_eq V c t) cover

end Cert.CompGcn.Region0

end
-- ==== Proof.LibColumnScale.lean ====
/-
  Two spellings a vector unit has for scaling the rows of a matrix by a one-column matrix: the column is first
  repeated along the rows' length, entry (p, q) of the repeat being the column's entry (p, 0), and then multiplied in
  entry by entry.
-/
import proofs.«110422_j61856118997742_2_alg».proof.Proof.LibRelGraphNet
import Idealize.ShloMosaic.Lib.Pipeline.Value

noncomputable section

namespace Cert.CompGcn.RegionLib

open Cert.CompGcn Cert.Layers Cert.LibMatProd
open Idealize.ShloMosaic Idealize.ShloMosaic.ValueIdx

/-- The offsets of a whole block, however the zeros are spelt. -/
theorem zeros : (![0, 0] : Fin 2 → Nat) = fun _ => 0 := funext fun a => by fin_cases a <;> rfl

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix times a one-column matrix repeated along the rows is the matrix with every row scaled by its entry. -/
theorem unit_rowScale {M N : ℕ} (a : FVec Ideal ⟨2, ![M, N]⟩ .f32) (s : FVec Ideal ⟨2, ![M, 1]⟩ .f32)
    (hb : (⟨2, ![M, 1]⟩ : Shape).Broadcasts ⟨2, ![M, N]⟩) :
    mulf a (broadcastTo ⟨2, ![M, N]⟩ s hb) = rowScale (a : Mat M N) (s : Mat M 1) := by
  funext j
  obtain ⟨p, q, rfl⟩ : ∃ (p : Fin M) (q : Fin N), j = ix2 p q := ⟨j 0, j 1, eq_ix2 j⟩
  rw [mulf_apply, broadcastTo_a1_ab_apply]
  rfl

end Cert.CompGcn.RegionLib

end
-- ==== Proof.Region1.lean ====
import proofs.«110422_j61856118997742_2_alg».proof.Proof.Gen.KernelIdeal.Frame
import proofs.«110422_j61856118997742_2_alg».proof.Proof.LibRelGraphNet
import proofs.«110422_j61856118997742_2_alg».proof.Proof.LibColumnScale
import Idealize.ShloMosaic.Lib.Pipeline.Value

set_option maxRecDepth 16384

noncomputable section

namespace Cert.CompGcn.Region1

open Cert.KernelIdeal Cert.KernelIdeal.Gen Cert.CompGcn Cert.CompGcn.RegionLib Cert.Layers Cert.LibMatProd
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's arithmetic on its blocks: the aggregate's rows scaled by the column, plus the node rows times the
    weights, clamped at zero. -/
theorem pay (h : Vec Ideal S5000x256 .bf16) (w : Vec Ideal S256x128 .bf16) (agg : Vec Ideal S5000x128 .f32)
    (s : Vec Ideal S5000x1 .f32) :
    k1_pay1 h w agg s = upd (agg : Mat 5000 128) (h : Mat 5000 256) (w : Mat 256 128) (s : Mat 5000 1) := by
  unfold k1_pay1
  simp only [shapeCast_self]
  refine (unit_clamp _).trans (congrArg clamp ?_)
  funext i
  rw [addf_apply, unit_rowScale agg s broadcasts_S5000x1_S5000x128,
    unit_prod dot_S5000x256_S256x128_S5000x128_1_0_0_1_n_n rfl rfl rfl rfl rfl rfl h w]

/-- Where each window's block sits at point t: the row windows at block row t, the weights at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem rows_le (t : Fin cfg1.N) : t.val * 5000 + 5000 ≤ 100000 := by
  have h : t.val < 20 := t.isLt
  omega

/-- The aggregate's block at point t is rows 5000 t, …, 5000 t + 4999 of its array. -/
theorem blk0 (c : Dev nD) (t : Fin cfg1.N) :
    iblk1 V c 0 t = band 5000 (t.val * 5000) (rows_le t) (V c main_v50 : Mat 100000 128) := by
  obtain ⟨e0, e1, -, -, -, -, -, -, -, -⟩ := index_maps t
  funext y
  show V c main_v50 (((cfg1.win 0).blk t).view.emb y) = _
  symm
  refine band_apply 5000 (t.val * 5000) (rows_le t) _ y _ ?_ ?_
  · show win1_0.index t (0 : Fin 2) * 5000 + 1 * (y 0).val = t.val * 5000 + (y 0).val
    omega
  · show win1_0.index t (1 : Fin 2) * 128 + 1 * (y 1).val = (y 1).val
    omega

/-- The node rows' block at point t is the same band of rows of their array. -/
theorem blk1 (c : Dev nD) (t : Fin cfg1.N) :
    iblk1 V c 1 t = band 5000 (t.val * 5000) (rows_le t) (V c main_v34 : Mat 100000 256) := by
  obtain ⟨-, -, e0, e1, -, -, -, -, -, -⟩ := index_maps t
  funext y
  show V c main_v34 (((cfg1.win 1).blk t).view.emb y) = _
  symm
  refine band_apply 5000 (t.val * 5000) (rows_le t) _ y _ ?_ ?_
  · show win1_1.index t (0 : Fin 2) * 5000 + 1 * (y 0).val = t.val * 5000 + (y 0).val
    omega
  · show win1_1.index t (1 : Fin 2) * 256 + 1 * (y 1).val = (y 1).val
    omega

/-- The weights' block at every point is the whole weight matrix. -/
theorem blk2 (c : Dev nD) (t : Fin cfg1.N) : iblk1 V c 2 t = (V c main_v36 : Mat 256 128) := by
  obtain ⟨-, -, -, -, e0, e1, -, -, -, -⟩ := index_maps t
  funext y
  show V c main_v36 (((cfg1.win 2).blk t).view.emb y) = V c main_v36 y
  refine congrArg (V c main_v36) (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The scaling column's block at point t is the same band of rows of its array. -/
theorem blk3 (c : Dev nD) (t : Fin cfg1.N) :
    iblk1 V c 3 t = band 5000 (t.val * 5000) (rows_le t) (V c main_v11 : Mat 100000 1) := by
  obtain ⟨-, -, -, -, -, -, e0, e1, -, -⟩ := index_maps t
  funext y
  show V c main_v11 (((cfg1.win 3).blk t).view.emb y) = _
  symm
  refine band_apply 5000 (t.val * 5000) (rows_le t) _ y _ ?_ ?_
  · show win1_3.index t (0 : Fin 2) * 5000 + 1 * (y 0).val = t.val * 5000 + (y 0).val
    omega
  · show win1_3.index t (1 : Fin 2) * 1 + 1 * (y 1).val = (y 1).val
    omega

/-- The result's block at point t, read off any whole matrix, is that band of rows of the matrix. -/
theorem blk_out (t : Fin cfg1.N) (G : Mat 100000 128) :
    ((cfg1.win 4).blk t).view.read (Elt Ideal) G = band 5000 (t.val * 5000) (rows_le t) G := by
  obtain ⟨-, -, -, -, -, -, -, -, e0, e1⟩ := index_maps t
  funext y
  show G (((cfg1.win 4).blk t).view.emb y) = _
  symm
  refine band_apply 5000 (t.val * 5000) (rows_le t) _ y _ ?_ ?_
  · show win1_4.index t (0 : Fin 2) * 5000 + 1 * (y 0).val = t.val * 5000 + (y 0).val
    omega
  · show win1_4.index t (1 : Fin 2) * 128 + 1 * (y 1).val = (y 1).val
    omega

/-- What point t writes back is its band of rows of the node update of the whole arrays. -/
theorem flushed_eq (c : Dev nD) (t : Fin cfg1.N) :
    (dat1 (F := Ideal) V c).flushed 4 t
      = ((cfg1.win 4).blk t).view.read (Elt Ideal)
          (upd (V c main_v50) (V c main_v34) (V c main_v36) (V c main_v11)) := by
  show (cfg1.win 4).cut (grid1.coords t) ((dat1 V c).after 4 t) = _
  rw [after1_4]
  unfold out1_4
  rw [View.canon_unit_zero zeros]
  simp only [View.ld_unit_zero (S := S5000x256) zeros, View.ld_unit_zero (S := S5000x128) zeros,
    View.ld_unit_zero (S := S5000x1) zeros, View.ld_unit_zero (S := S256x128) zeros]
  rw [pay, blk0, blk1, blk2, blk3, blk_out, band_upd]
  rfl

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v51).slice (win1_4.rect t)).set ↔ _
  rw [View.set_slice_whole, Rect.mem_set_unit]
  exact Iff.rfl

/-- Every row of the array is in the block of the point numbered by the row over 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, -, -, -, e0, e1⟩ := index_maps t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the result array is the node update of the aggregate, the node rows, the weights and the column. -/
theorem arr (c : Dev nD) :
    (dat1 (F := Ideal) V c).arrAt 4 cfg1.N = upd (V c main_v50) (V c main_v34) (V c main_v36) (V c main_v11) :=
  (dat1 (F := Ideal) V c).arrAt_eq_of_cover 4 (upd (V c main_v50) (V c main_v34) (V c main_v36) (V c main_v11))
    (fun t _ => flushed_eq V c t) cover

end Cert.CompGcn.Region1

end
-- ==== Proof.Region2.lean ====
import proofs.«110422_j61856118997742_2_alg».proof.Proof.Gen.KernelIdeal.Frame
import proofs.«110422_j61856118997742_2_alg».proof.Proof.LibRelGraphNet
import Idealize.ShloMosaic.Lib.Pipeline.Value

set_option maxRecDepth 16384

noncomputable section

namespace Cert.CompGcn.Region2

open Cert.KernelIdeal Cert.KernelIdeal.Gen Cert.CompGcn Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The body's arithmetic on two blocks is their entry by entry product. -/
theorem pay (x0 x1 : Vec Ideal S10000x128 .f32) : k2_pay1 x0 x1 = had (x0 : Mat 10000 128) (x1 : Mat 10000 128) := by
  unfold k2_pay1
  simp only [shapeCast_self]
  rfl

/-- Where each window's block sits at point t: block row t, block column 0. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem rows_le (t : Fin cfg2.N) : t.val * 10000 + 10000 ≤ 500000 := by
  have h : t.val < 50 := t.isLt
  omega

/-- The first operand's block at point t is rows 10000 t, …, 10000 t + 9999 of its array. -/
theorem blk0 (c : Dev nD) (t : Fin cfg2.N) :
    iblk2 V c 0 t = band 10000 (t.val * 10000) (rows_le t) (V c main_v67 : Mat 500000 128) := by
  obtain ⟨e0, e1, -, -, -, -⟩ := index_maps t
  funext y
  show V c main_v67 (((cfg2.win 0).blk t).view.emb y) = _
  symm
  refine band_apply 10000 (t.val * 10000) (rows_le t) _ y _ ?_ ?_
  · show win2_0.index t (0 : Fin 2) * 10000 + 1 * (y 0).val = t.val * 10000 + (y 0).val
    omega
  · show win2_0.index t (1 : Fin 2) * 128 + 1 * (y 1).val = (y 1).val
    omega

/-- The second operand's block at point t is the same band of rows of its array. -/
theorem blk1 (c : Dev nD) (t : Fin cfg2.N) :
    iblk2 V c 1 t = band 10000 (t.val * 10000) (rows_le t) (V c main_v60 : Mat 500000 128) := by
  obtain ⟨-, -, e0, e1, -, -⟩ := index_maps t
  funext y
  show V c main_v60 (((cfg2.win 1).blk t).view.emb y) = _
  symm
  refine band_apply 10000 (t.val * 10000) (rows_le t) _ y _ ?_ ?_
  · show win2_1.index t (0 : Fin 2) * 10000 + 1 * (y 0).val = t.val * 10000 + (y 0).val
    omega
  · show win2_1.index t (1 : Fin 2) * 128 + 1 * (y 1).val = (y 1).val
    omega

/-- The result's block at point t, read off any whole matrix, is that band of rows of the matrix. -/
theorem blk_out (t : Fin cfg2.N) (G : Mat 500000 128) :
    ((cfg2.win 2).blk t).view.read (Elt Ideal) G = band 10000 (t.val * 10000) (rows_le t) G := by
  obtain ⟨-, -, -, -, e0, e1⟩ := index_maps t
  funext y
  show G (((cfg2.win 2).blk t).view.emb y) = _
  symm
  refine band_apply 10000 (t.val * 10000) (rows_le t) _ y _ ?_ ?_
  · show win2_2.index t (0 : Fin 2) * 10000 + 1 * (y 0).val = t.val * 10000 + (y 0).val
    omega
  · show win2_2.index t (1 : Fin 2) * 128 + 1 * (y 1).val = (y 1).val
    omega

/-- What point t writes back is its band of rows of the product of the whole arrays. -/
theorem flushed_eq (c : Dev nD) (t : Fin cfg2.N) :
    (dat2 (F := Ideal) V c).flushed 2 t
      = ((cfg2.win 2).blk t).view.read (Elt Ideal) (had (V c main_v67) (V c main_v60)) := by
  show (cfg2.win 2).cut (grid2.coords t) ((dat2 V c).after 2 t) = _
  rw [after2_2]
  unfold out2_2
  rw [View.canon_unit_zero zeros]
  simp only [View.ld_unit_zero (S := S10000x128) zeros]
  rw [pay, blk0, blk1, blk_out, band_had]
  rfl

/-- An index of the array is in point t's block iff each coordinate is in the block's range on its axis. -/
theorem mem_blk (t : Fin cfg2.N) (i : S500000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v68).slice (win2_2.rect t)).set ↔ _
  rw [View.set_slice_whole, Rect.mem_set_unit]
  exact Iff.rfl

/-- Every row of the array is in the block of the point numbered by the row over 10000. -/
theorem cover (i : S500000x128.Idx) :
    ∃ t : Fin cfg2.N, (cfg2.win 2).flush t = true ∧ i ∈ ((cfg2.win 2).blk t).view.set := by
  have hi0 : (i 0).val < 500000 := (i 0).isLt
  have hi1 : (i 1).val < 128 := (i 1).isLt
  let t : Fin cfg2.N := ⟨(i 0).val / 10000, by show (i 0).val / 10000 < 50; omega⟩
  obtain ⟨-, -, -, -, e0, e1⟩ := index_maps t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the result array is the entry by entry product of the two operand arrays. -/
theorem arr (c : Dev nD) : (dat2 (F := Ideal) V c).arrAt 2 cfg2.N = had (V c main_v67) (V c main_v60) :=
  (dat2 (F := Ideal) V c).arrAt_eq_of_cover 2 (had (V c main_v67) (V c main_v60)) (fun t _ => flushed_eq V c t) cover

end Cert.CompGcn.Region2

end
-- ==== Proof.Region3.lean ====
import proofs.«110422_j61856118997742_2_alg».proof.Proof.Gen.KernelIdeal.Frame
import proofs.«110422_j61856118997742_2_alg».proof.Proof.LibRelGraphNet
import proofs.«110422_j61856118997742_2_alg».proof.Proof.LibColumnScale
import Idealize.ShloMosaic.Lib.Pipeline.Value

set_option maxRecDepth 16384

noncomputable section

namespace Cert.CompGcn.Region3

open Cert.KernelIdeal Cert.KernelIdeal.Gen Cert.CompGcn Cert.CompGcn.RegionLib Cert.Layers Cert.LibMatProd
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's first result on its blocks: the aggregate's rows scaled by the column, times the first weights, plus
    the node rows times the second weights, clamped at zero. -/
theorem pay1 (agg : Vec Ideal S5000x128 .f32) (s : Vec Ideal S5000x1 .f32) (wm : Vec Ideal S128x256 .bf16)
    (h : Vec Ideal S5000x128 .bf16) (ws : Vec Ideal S128x256 .bf16) :
    k3_pay1 agg s wm h ws
      = updLate (agg : Mat 5000 128) (h : Mat 5000 128) (wm : Mat 128 256) (ws : Mat 128 256) (s : Mat 5000 1) := by
  unfold k3_pay1
  simp only [shapeCast_self]
  refine (unit_clamp _).trans (congrArg clamp ?_)
  funext i
  rw [addf_apply]
  refine congrArg₂ (· + ·) ?_ ?_
  · refine (congrFun (unit_prod dot_S5000x128_S128x256_S5000x256_1_0_0_1_n_n rfl rfl rfl rfl rfl rfl _ _) i).trans ?_
    exact congrFun (congrArg (fun a : Mat 5000 128 => matProd a (wm : Mat 128 256))
      (unit_rowScale agg s broadcasts_S5000x1_S5000x128)) i
  · exact congrFun (unit_prod dot_S5000x128_S128x256_S5000x256_1_0_0_1_n_n rfl rfl rfl rfl rfl rfl h ws) i

/-- The body's second result: the first with every row scaled by its entry of the second column. -/
theorem pay2 (agg : Vec Ideal S5000x128 .f32) (s : Vec Ideal S5000x1 .f32) (wm : Vec Ideal S128x256 .bf16)
    (h : Vec Ideal S5000x128 .bf16) (ws : Vec Ideal S128x256 .bf16) (s2 : Vec Ideal S5000x1 .f32) :
    k3_pay2 agg s wm h ws s2
      = rowScale (updLate (agg : Mat 5000 128) (h : Mat 5000 128) (wm : Mat 128 256) (ws : Mat 128 256) (s : Mat 5000 1))
          (s2 : Mat 5000 1) := by
  unfold k3_pay2
  simp only [shapeCast_self]
  rw [pay1]
  exact unit_rowScale _ s2 broadcasts_S5000x1_S5000x256

/-- Where each window's block sits at point t: the row windows at block row t, the weights at block 0. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem rows_le (t : Fin cfg3.N) : t.val * 5000 + 5000 ≤ 100000 := by
  have h : t.val < 20 := t.isLt
  omega

/-- The aggregate's block at point t is rows 5000 t, …, 5000 t + 4999 of its array. -/
theorem blk0 (c : Dev nD) (t : Fin cfg3.N) :
    iblk3 V c 0 t = band 5000 (t.val * 5000) (rows_le t) (V c main_v71 : Mat 100000 128) := by
  obtain ⟨e0, e1, -, -, -, -, -, -, -, -, -, -, -, -, -, -⟩ := index_maps t
  funext y
  show V c main_v71 (((cfg3.win 0).blk t).view.emb y) = _
  symm
  refine band_apply 5000 (t.val * 5000) (rows_le t) _ y _ ?_ ?_
  · show win3_0.index t (0 : Fin 2) * 5000 + 1 * (y 0).val = t.val * 5000 + (y 0).val
    omega
  · show win3_0.index t (1 : Fin 2) * 128 + 1 * (y 1).val = (y 1).val
    omega

/-- The node rows' block at point t is the same band of rows of their array. -/
theorem blk1 (c : Dev nD) (t : Fin cfg3.N) :
    iblk3 V c 1 t = band 5000 (t.val * 5000) (rows_le t) (V c main_v52 : Mat 100000 128) := by
  obtain ⟨-, -, e0, e1, -, -, -, -, -, -, -, -, -, -, -, -⟩ := index_maps t
  funext y
  show V c main_v52 (((cfg3.win 1).blk t).view.emb y) = _
  symm
  refine band_apply 5000 (t.val * 5000) (rows_le t) _ y _ ?_ ?_
  · show win3_1.index t (0 : Fin 2) * 5000 + 1 * (y 0).val = t.val * 5000 + (y 0).val
    omega
  · show win3_1.index t (1 : Fin 2) * 128 + 1 * (y 1).val = (y 1).val
    omega

/-- The first weights' block at every point is the whole weight matrix. -/
theorem blk2 (c : Dev nD) (t : Fin cfg3.N) : iblk3 V c 2 t = (V c main_v37 : Mat 128 256) := by
  obtain ⟨-, -, -, -, e0, e1, -, -, -, -, -, -, -, -, -, -⟩ := index_maps t
  funext y
  show V c main_v37 (((cfg3.win 2).blk t).view.emb y) = V c main_v37 y
  refine congrArg (V c main_v37) (funext fun a => Fin.ext ?_)
  match a with
  | ⟨0, _⟩ => show win3_2.index t (0 : Fin 2) * 128 + 1 * (y 0).val = (y 0).val; omega
  | ⟨1, _⟩ => show win3_2.index t (1 : Fin 2) * 256 + 1 * (y 1).val = (y 1).val; omega

/-- The second weights' block at every point is the whole weight matrix. -/
theorem blk3 (c : Dev nD) (t : Fin cfg3.N) : iblk3 V c 3 t = (V c main_v38 : Mat 128 256) := by
  obtain ⟨-, -, -, -, -, -, e0, e1, -, -, -, -, -, -, -, -⟩ := index_maps t
  funext y
  show V c main_v38 (((cfg3.win 3).blk t).view.emb y) = V c main_v38 y
  refine congrArg (V c main_v38) (funext fun a => Fin.ext ?_)
  match a with
  | ⟨0, _⟩ => show win3_3.index t (0 : Fin 2) * 128 + 1 * (y 0).val = (y 0).val; omega
  | ⟨1, _⟩ => show win3_3.index t (1 : Fin 2) * 256 + 1 * (y 1).val = (y 1).val; omega

/-- The first scaling column's block at point t is the same band of rows of its array. -/
theorem blk4 (c : Dev nD) (t : Fin cfg3.N) :
    iblk3 V c 4 t = band 5000 (t.val * 5000) (rows_le t) (V c main_v11 : Mat 100000 1) := by
  obtain ⟨-, -, -, -, -, -, -, -, e0, e1, -, -, -, -, -, -⟩ := index_maps t
  funext y
  show V c main_v11 (((cfg3.win 4).blk t).view.emb y) = _
  symm
  refine band_apply 5000 (t.val * 5000) (rows_le t) _ y _ ?_ ?_
  · show win3_4.index t (0 : Fin 2) * 5000 + 1 * (y 0).val = t.val * 5000 + (y 0).val
    omega
  · show win3_4.index t (1 : Fin 2) * 1 + 1 * (y 1).val = (y 1).val
    omega

/-- The second scaling column's block at point t is the same band of rows of its array. -/
theorem blk5 (c : Dev nD) (t : Fin cfg3.N) :
    iblk3 V c 5 t = band 5000 (t.val * 5000) (rows_le t) (V c main_v15 : Mat 100000 1) := by
  obtain ⟨-, -, -, -, -, -, -, -, -, -, e0, e1, -, -, -, -⟩ := index_maps t
  funext y
  show V c main_v15 (((cfg3.win 5).blk t).view.emb y) = _
  symm
  refine band_apply 5000 (t.val * 5000) (rows_le t) _ y _ ?_ ?_
  · show win3_5.index t (0 : Fin 2) * 5000 + 1 * (y 0).val = t.val * 5000 + (y 0).val
    omega
  · show win3_5.index t (1 : Fin 2) * 1 + 1 * (y 1).val = (y 1).val
    omega

/-- The result's block at point t, read off any whole matrix, is that band of rows of the matrix. -/
theorem blk_out6 (t : Fin cfg3.N) (G : Mat 100000 256) :
    ((cfg3.win 6).blk t).view.read (Elt Ideal) G = band 5000 (t.val * 5000) (rows_le t) G := by
  obtain ⟨-, -, -, -, -, -, -, -, -, -, -, -, e0, e1, -, -⟩ := index_maps t
  funext y
  show G (((cfg3.win 6).blk t).view.emb y) = _
  symm
  refine band_apply 5000 (t.val * 5000) (rows_le t) _ y _ ?_ ?_
  · show win3_6.index t (0 : Fin 2) * 5000 + 1 * (y 0).val = t.val * 5000 + (y 0).val
    omega
  · show win3_6.index t (1 : Fin 2) * 256 + 1 * (y 1).val = (y 1).val
    omega

/-- The result's block at point t, read off any whole matrix, is that band of rows of the matrix. -/
theorem blk_out7 (t : Fin cfg3.N) (G : Mat 100000 256) :
    ((cfg3.win 7).blk t).view.read (Elt Ideal) G = band 5000 (t.val * 5000) (rows_le t) G := by
  obtain ⟨-, -, -, -, -, -, -, -, -, -, -, -, -, -, e0, e1⟩ := index_maps t
  funext y
  show G (((cfg3.win 7).blk t).view.emb y) = _
  symm
  refine band_apply 5000 (t.val * 5000) (rows_le t) _ y _ ?_ ?_
  · show win3_7.index t (0 : Fin 2) * 5000 + 1 * (y 0).val = t.val * 5000 + (y 0).val
    omega
  · show win3_7.index t (1 : Fin 2) * 256 + 1 * (y 1).val = (y 1).val
    omega

/-- What point t writes back to the first result is its band of rows of the late update of the whole arrays. -/
theorem flushed_eq6 (c : Dev nD) (t : Fin cfg3.N) :
    (dat3 (F := Ideal) V c).flushed 6 t
      = ((cfg3.win 6).blk t).view.read (Elt Ideal)
          (updLate (V c main_v71) (V c main_v52) (V c main_v37) (V c main_v38) (V c main_v11)) := by
  show (cfg3.win 6).cut (grid3.coords t) ((dat3 V c).after 6 t) = _
  rw [after3_6]
  unfold out3_6
  rw [View.canon_unit_zero zeros]
  simp only [View.ld_unit_zero (S := S5000x128) zeros, View.ld_unit_zero (S := S5000x1) zeros,
    View.ld_unit_zero (S := S128x256) zeros]
  rw [pay1, blk0, blk1, blk2, blk3, blk4, blk_out6, band_updLate]
  rfl

/-- What point t writes back to the second result is its band of rows of the late update scaled by the second column. -/
theorem flushed_eq7 (c : Dev nD) (t : Fin cfg3.N) :
    (dat3 (F := Ideal) V c).flushed 7 t
      = ((cfg3.win 7).blk t).view.read (Elt Ideal)
          (rowScale (updLate (V c main_v71) (V c main_v52) (V c main_v37) (V c main_v38) (V c main_v11))
            (V c main_v15)) := by
  show (cfg3.win 7).cut (grid3.coords t) ((dat3 V c).after 7 t) = _
  rw [after3_7]
  unfold out3_7
  rw [View.canon_unit_zero zeros]
  simp only [View.ld_unit_zero (S := S5000x128) zeros, View.ld_unit_zero (S := S5000x1) zeros,
    View.ld_unit_zero (S := S128x256) zeros]
  rw [pay2, blk0, blk1, blk2, blk3, blk4, blk5, blk_out7, band_updLate, band_rowScale]
  rfl

/-- An index of the array is in point t's block iff each coordinate is in the block's range on its axis. -/
theorem mem_blk6 (t : Fin cfg3.N) (i : S100000x256.Idx) :
    i ∈ ((cfg3.win 6).blk t).view.set ↔ ∀ a : Fin 2, win3_6.index t a * S5000x256.size a ≤ (i a).val ∧ (i a).val < win3_6.index t a * S5000x256.size a + S5000x256.size a := by
  show i ∈ ((View.whole main_v72_0).slice (win3_6.rect t)).set ↔ _
  rw [View.set_slice_whole, Rect.mem_set_unit]
  exact Iff.rfl

/-- Every row of the array is in the block of the point numbered by the row over 5000. -/
theorem cover6 (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  let t : Fin cfg3.N := ⟨(i 0).val / 5000, by show (i 0).val / 5000 < 20; omega⟩
  obtain ⟨-, -, -, -, -, -, -, -, -, -, -, -, e0, e1, -, -⟩ := index_maps t
  have ht : t.val = (i 0).val / 5000 := rfl
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 256 ≤ (i 1).val ∧ (i 1).val < win3_6.index t (1 : Fin 2) * 256 + 256; omega

/-- An index of the array is in point t's block iff each coordinate is in the block's range on its axis. -/
theorem mem_blk7 (t : Fin cfg3.N) (i : S100000x256.Idx) :
    i ∈ ((cfg3.win 7).blk t).view.set ↔ ∀ a : Fin 2, win3_7.index t a * S5000x256.size a ≤ (i a).val ∧ (i a).val < win3_7.index t a * S5000x256.size a + S5000x256.size a := by
  show i ∈ ((View.whole main_v72_1).slice (win3_7.rect t)).set ↔ _
  rw [View.set_slice_whole, Rect.mem_set_unit]
  exact Iff.rfl

/-- Every row of the array is in the block of the point numbered by the row over 5000. -/
theorem cover7 (i : S100000x256.Idx) :
    ∃ t : Fin cfg3.N, (cfg3.win 7).flush t = true ∧ i ∈ ((cfg3.win 7).blk t).view.set := by
  have hi0 : (i 0).val < 100000 := (i 0).isLt
  have hi1 : (i 1).val < 256 := (i 1).isLt
  let t : Fin cfg3.N := ⟨(i 0).val / 5000, by show (i 0).val / 5000 < 20; omega⟩
  obtain ⟨-, -, -, -, -, -, -, -, -, -, -, -, -, -, e0, e1⟩ := index_maps t
  have ht : t.val = (i 0).val / 5000 := rfl
  refine ⟨t, flush3_7 t, ?_⟩
  rw [mem_blk7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 256 ≤ (i 1).val ∧ (i 1).val < win3_7.index t (1 : Fin 2) * 256 + 256; omega

/-- After the region the first result array is the late update of the whole arrays. -/
theorem arr6 (c : Dev nD) :
    (dat3 (F := Ideal) V c).arrAt 6 cfg3.N
      = updLate (V c main_v71) (V c main_v52) (V c main_v37) (V c main_v38) (V c main_v11) :=
  (dat3 (F := Ideal) V c).arrAt_eq_of_cover 6
    (updLate (V c main_v71) (V c main_v52) (V c main_v37) (V c main_v38) (V c main_v11))
    (fun t _ => flushed_eq6 V c t) cover6

/-- After the region the second result array is the late update with every row scaled by the second column. -/
theorem arr7 (c : Dev nD) :
    (dat3 (F := Ideal) V c).arrAt 7 cfg3.N
      = rowScale (updLate (V c main_v71) (V c main_v52) (V c main_v37) (V c main_v38) (V c main_v11)) (V c main_v15) :=
  (dat3 (F := Ideal) V c).arrAt_eq_of_cover 7
    (rowScale (updLate (V c main_v71) (V c main_v52) (V c main_v37) (V c main_v38) (V c main_v11)) (V c main_v15))
    (fun t _ => flushed_eq7 V c t) cover7

end Cert.CompGcn.Region3

end
-- ==== Proof.Region4.lean ====
import proofs.«110422_j61856118997742_2_alg».proof.Proof.Gen.KernelIdeal.Frame
import proofs.«110422_j61856118997742_2_alg».proof.Proof.LibRelGraphNet
import proofs.«110422_j61856118997742_2_alg».proof.Proof.LibColumnScale
import Idealize.ShloMosaic.Lib.Pipeline.Value

set_option maxRecDepth 16384

noncomputable section

namespace Cert.CompGcn.Region4

open Cert.KernelIdeal Cert.KernelIdeal.Gen Cert.CompGcn Cert.CompGcn.RegionLib Cert.Layers Cert.LibMatProd
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's arithmetic on its blocks: the rows scaled by the column, times the weights, clamped at zero. -/
theorem pay (x0 : Vec Ideal S5000x256 .f32) (x1 : Vec Ideal S5000x1 .f32) (x2 : Vec Ideal S256x256 .bf16) :
    k4_pay1 x0 x1 x2 = spectral (x0 : Mat 5000 256) (x1 : Mat 5000 1) (x2 : Mat 256 256) := by
  unfold k4_pay1
  simp only [shapeCast_self]
  refine (unit_clamp _).trans (congrArg clamp ?_)
  refine (unit_prod dot_S5000x256_S256x256_S5000x256_1_0_0_1_n_n rfl rfl rfl rfl rfl rfl _ _).trans ?_
  exact congrArg (fun a : Mat 5000 256 => matProd a (x2 : Mat 256 256)) (unit_rowScale x0 x1 broadcasts_S5000x1_S5000x256)

/-- Where each window's block sits at point t: the row windows at block row t, the weights at block 0. -/
theorem index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem rows_le (t : Fin cfg4.N) : t.val * 5000 + 5000 ≤ 100000 := by
  have h : t.val < 20 := t.isLt
  omega

/-- The aggregate's block at point t is rows 5000 t, …, 5000 t + 4999 of its array. -/
theorem blk0 (c : Dev nD) (t : Fin cfg4.N) :
    iblk4 V c 0 t = band 5000 (t.val * 5000) (rows_le t) (V c main_v82 : Mat 100000 256) := by
  obtain ⟨e0, e1, -, -, -, -, -, -⟩ := index_maps t
  funext y
  show V c main_v82 (((cfg4.win 0).blk t).view.emb y) = _
  symm
  refine band_apply 5000 (t.val * 5000) (rows_le t) _ y _ ?_ ?_
  · show win4_0.index t (0 : Fin 2) * 5000 + 1 * (y 0).val = t.val * 5000 + (y 0).val
    omega
  · show win4_0.index t (1 : Fin 2) * 256 + 1 * (y 1).val = (y 1).val
    omega

/-- The scaling column's block at point t is the same band of rows of its array. -/
theorem blk1 (c : Dev nD) (t : Fin cfg4.N) :
    iblk4 V c 1 t = band 5000 (t.val * 5000) (rows_le t) (V c main_v19 : Mat 100000 1) := by
  obtain ⟨-, -, e0, e1, -, -, -, -⟩ := index_maps t
  funext y
  show V c main_v19 (((cfg4.win 1).blk t).view.emb y) = _
  symm
  refine band_apply 5000 (t.val * 5000) (rows_le t) _ y _ ?_ ?_
  · show win4_1.index t (0 : Fin 2) * 5000 + 1 * (y 0).val = t.val * 5000 + (y 0).val
    omega
  · show win4_1.index t (1 : Fin 2) * 1 + 1 * (y 1).val = (y 1).val
    omega

/-- The weights' block at every point is the whole weight matrix. -/
theorem blk2 (c : Dev nD) (t : Fin cfg4.N) : iblk4 V c 2 t = (V c main_v39 : Mat 256 256) := by
  obtain ⟨-, -, -, -, e0, e1, -, -⟩ := index_maps t
  funext y
  show V c main_v39 (((cfg4.win 2).blk t).view.emb y) = V c main_v39 y
  refine congrArg (V c main_v39) (funext fun a => Fin.ext ?_)
  match a with
  | ⟨0, _⟩ => show win4_2.index t (0 : Fin 2) * 256 + 1 * (y 0).val = (y 0).val; omega
  | ⟨1, _⟩ => show win4_2.index t (1 : Fin 2) * 256 + 1 * (y 1).val = (y 1).val; omega

/-- The result's block at point t, read off any whole matrix, is that band of rows of the matrix. -/
theorem blk_out (t : Fin cfg4.N) (G : Mat 100000 256) :
    ((cfg4.win 3).blk t).view.read (Elt Ideal) G = band 5000 (t.val * 5000) (rows_le t) G := by
  obtain ⟨-, -, -, -, -, -, e0, e1⟩ := index_maps t
  funext y
  show G (((cfg4.win 3).blk t).view.emb y) = _
  symm
  refine band_apply 5000 (t.val * 5000) (rows_le t) _ y _ ?_ ?_
  · show win4_3.index t (0 : Fin 2) * 5000 + 1 * (y 0).val = t.val * 5000 + (y 0).val
    omega
  · show win4_3.index t (1 : Fin 2) * 256 + 1 * (y 1).val = (y 1).val
    omega

/-- What point t writes back is its band of rows of the read-out of the whole arrays. -/
theorem flushed_eq (c : Dev nD) (t : Fin cfg4.N) :
    (dat4 (F := Ideal) V c).flushed 3 t
      = ((cfg4.win 3).blk t).view.read (Elt Ideal) (spectral (V c main_v82) (V c main_v19) (V c main_v39)) := by
  show (cfg4.win 3).cut (grid4.coords t) ((dat4 V c).after 3 t) = _
  rw [after4_3]
  unfold out4_3
  rw [View.canon_unit_zero zeros]
  simp only [View.ld_unit_zero (S := S5000x256) zeros, View.ld_unit_zero (S := S5000x1) zeros,
    View.ld_unit_zero (S := S256x256) zeros]
  rw [pay, blk0, blk1, blk2, blk_out, band_spectral]
  rfl

/-- An index of the array is in point t's block iff each coordinate is in the block's range on its axis. -/
theorem mem_blk (t : Fin cfg4.N) (i : S100000x256.Idx) :
    i ∈ ((cfg4.win 3).blk t).view.set ↔ ∀ a : Fin 2, win4_3.index t a * S5000x256.size a ≤ (i a).val ∧ (i a).val < win4_3.index t a * S5000x256.size a + S5000x256.size a := by
  show i ∈ ((View.whole main_v83).slice (win4_3.rect t)).set ↔ _
  rw [View.set_slice_whole, Rect.mem_set_unit]
  exact Iff.rfl

/-- Every row of the array is in the block of the point numbered by the row over 5000. -/
theorem cover (i : S100000x256.Idx) :
    ∃ t : Fin cfg4.N, (cfg4.win 3).flush t = true ∧ i ∈ ((cfg4.win 3).blk t).view.set := by
  have hi0 : (i 0).val < 100000 := (i 0).isLt
  have hi1 : (i 1).val < 256 := (i 1).isLt
  let t : Fin cfg4.N := ⟨(i 0).val / 5000, by show (i 0).val / 5000 < 20; omega⟩
  obtain ⟨-, -, -, -, -, -, e0, e1⟩ := index_maps t
  have ht : t.val = (i 0).val / 5000 := rfl
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 256 ≤ (i 1).val ∧ (i 1).val < win4_3.index t (1 : Fin 2) * 256 + 256; omega

/-- After the region the result array is the spectral read-out of the aggregate, the scaling column and the weights. -/
theorem arr (c : Dev nD) :
    (dat4 (F := Ideal) V c).arrAt 3 cfg4.N = spectral (V c main_v82) (V c main_v19) (V c main_v39) :=
  (dat4 (F := Ideal) V c).arrAt_eq_of_cover 3 (spectral (V c main_v82) (V c main_v19) (V c main_v39))
    (fun t _ => flushed_eq V c t) cover

end Cert.CompGcn.Region4

end
-- ==== Proof.KFold.lean ====
/-
  The idealized kernel's result buffer, read back through the run.

  The buffer contents at the ten segment boundaries are a fold from the launch memory. A buffer that a host stretch
  does not write, or that is none of a region's arrays, holds after the segment what it held before it. What a host
  stretch writes is its operations' value of what the stretch was entered with, and an output array of a region is the
  region's whole-array function of its input arrays. Walking the fold back from the result buffer, segment by segment,
  gives the late arrangement of the network applied to the launch arguments.
-/
import proofs.«110422_j61856118997742_2_alg».proof.Proof.Gen.KernelIdeal.Frame
import proofs.«110422_j61856118997742_2_alg».proof.Proof.LibRelGraphHost
import proofs.«110422_j61856118997742_2_alg».proof.Proof.Region0
import proofs.«110422_j61856118997742_2_alg».proof.Proof.Region1
import proofs.«110422_j61856118997742_2_alg».proof.Proof.Region2
import proofs.«110422_j61856118997742_2_alg».proof.Proof.Region3
import proofs.«110422_j61856118997742_2_alg».proof.Proof.Region4

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Layers Cert.LibMatProd Cert.CompGcn Cert.CompGcn.HostForms Idealize.ShloMosaic.GatherRows Idealize.ShloMosaic.ScatterRows

variable (m : (ℓ : Loc nD τ sig) → Buf (Elt Ideal) ℓ) (ρ : Dev nD → PrngReg) (c : Dev nD)

/-! ## What each host stretch writes, and what it therefore leaves alone -/

abbrev wr0 : List (Ref sig .tc) := [main_cst, main_v0, main_cst_0, main_v1, main_v2, main_v3, main_cst_1, main_v4, main_v5, main_v6, main_cst_2, main_v7, main_v8, main_cst_3, main_v9, main_v10, main_v11, main_cst_4, main_v12, main_v13, main_v14, main_v15, main_cst_5, main_v16, main_v17, main_v18, main_v19, main_c, main_v20, main_v21, main_c_6, main_v22, main_v23, main_v24, main_v25, main_v26, main_c_7, main_v27, main_v28, main_c_8, main_v29, main_v30, main_v31, main_v32, main_v33, main_v34, main_v35, main_v36, main_v37, main_v38, main_v39, main_c_9, main_v40, main_v41, main_c_10, main_v42, main_v43, main_v44, main_v45, main_v46]
abbrev wr1 : List (Ref sig .tc) := [main_cst_11, main_v48, main_v49, main_v50]
abbrev wr2 : List (Ref sig .tc) := [main_v52, main_v53, main_c_12, main_v54, main_v55, main_c_13, main_v56, main_v57, main_v58, main_v59, main_v60, main_c_14, main_v61, main_v62, main_c_15, main_v63, main_v64, main_v65, main_v66, main_v67]
abbrev wr3 : List (Ref sig .tc) := [main_cst_16, main_v69, main_v70, main_v71]
abbrev wr4 : List (Ref sig .tc) := [main_c_17, main_v73, main_v74, main_c_18, main_v75, main_v76, main_v77, main_v78, main_v79, main_cst_19, main_v80, main_v81, main_v82]

/-- One written buffer lies in the list of the stretch's written buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem writes0 : (hostOps0 : List (HloOp τ sig (Elt Ideal))).Forall fun op => op.writes ⊆ (wr0.map (Proc.devRef (τ := τ) .tc)).toFinset := by
  simp only [hostOps0, List.Forall, nullary_writes, unary_writes, binary_writes, ternary_writes, reshape_writes]
  repeat' apply And.intro
  all_goals exact sub_of_mem (by decide)
theorem writes1 : (hostOps1 : List (HloOp τ sig (Elt Ideal))).Forall fun op => op.writes ⊆ (wr1.map (Proc.devRef (τ := τ) .tc)).toFinset := by
  simp only [hostOps1, List.Forall, nullary_writes, unary_writes, binary_writes, ternary_writes, reshape_writes]
  repeat' apply And.intro
  all_goals exact sub_of_mem (by decide)
theorem writes2 : (hostOps2 : List (HloOp τ sig (Elt Ideal))).Forall fun op => op.writes ⊆ (wr2.map (Proc.devRef (τ := τ) .tc)).toFinset := by
  simp only [hostOps2, List.Forall, nullary_writes, unary_writes, binary_writes, ternary_writes, reshape_writes]
  repeat' apply And.intro
  all_goals exact sub_of_mem (by decide)
theorem writes3 : (hostOps3 : List (HloOp τ sig (Elt Ideal))).Forall fun op => op.writes ⊆ (wr3.map (Proc.devRef (τ := τ) .tc)).toFinset := by
  simp only [hostOps3, List.Forall, nullary_writes, unary_writes, binary_writes, ternary_writes, reshape_writes]
  repeat' apply And.intro
  all_goals exact sub_of_mem (by decide)
theorem writes4 : (hostOps4 : List (HloOp τ sig (Elt Ideal))).Forall fun op => op.writes ⊆ (wr4.map (Proc.devRef (τ := τ) .tc)).toFinset := by
  simp only [hostOps4, List.Forall, nullary_writes, unary_writes, binary_writes, ternary_writes, reshape_writes]
  repeat' apply And.intro
  all_goals exact sub_of_mem (by decide)

theorem keep0 (b : Ref sig .tc) (hb : b ∉ wr0) : W1 m ρ c (Proc.devRef .tc b) = W0 m ρ c (Proc.devRef .tc b) :=
  after_of_writes_sub hostOps0 _ writes0 hb
theorem keep1 (b : Ref sig .tc) (hb : b ∉ wr1) : W3 m ρ c (Proc.devRef .tc b) = W2 m ρ c (Proc.devRef .tc b) :=
  after_of_writes_sub hostOps1 _ writes1 hb
theorem keep2 (b : Ref sig .tc) (hb : b ∉ wr2) : W5 m ρ c (Proc.devRef .tc b) = W4 m ρ c (Proc.devRef .tc b) :=
  after_of_writes_sub hostOps2 _ writes2 hb
theorem keep3 (b : Ref sig .tc) (hb : b ∉ wr3) : W7 m ρ c (Proc.devRef .tc b) = W6 m ρ c (Proc.devRef .tc b) :=
  after_of_writes_sub hostOps3 _ writes3 hb
theorem keep4 (b : Ref sig .tc) (hb : b ∉ wr4) : W9 m ρ c (Proc.devRef .tc b) = W8 m ρ c (Proc.devRef .tc b) :=
  after_of_writes_sub hostOps4 _ writes4 hb

/-- A launch argument holds its launch contents at the entry of every region and host stretch used below. -/
theorem arg_at2 (b : Ref sig .tc) (h0 : b ∉ wr0) (r0 : ∀ w, Pipeline.arrRef spec0 w ≠ b) :
    W2 m ρ c (Proc.devRef .tc b) = m ((c : Thread nD τ).loc b) :=
  (W2_of_ne m ρ c b r0).trans (keep0 m ρ c b h0)
theorem arg_at4 (b : Ref sig .tc) (h0 : b ∉ wr0) (r0 : ∀ w, Pipeline.arrRef spec0 w ≠ b) (h1 : b ∉ wr1)
    (r1 : ∀ w, Pipeline.arrRef spec1 w ≠ b) : W4 m ρ c (Proc.devRef .tc b) = m ((c : Thread nD τ).loc b) :=
  (W4_of_ne m ρ c b r1).trans ((keep1 m ρ c b h1).trans (arg_at2 m ρ c b h0 r0))
theorem arg_at6 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) :
    W6 m ρ c (Proc.devRef .tc b) = m ((c : Thread nD τ).loc b) :=
  (W6_of_ne m ρ c b r2).trans ((keep2 m ρ c b h2).trans (arg_at4 m ρ c b h0 r0 h1 r1))
theorem arg_at8 (b : Ref sig .tc) (h0 : b ∉ wr0) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3)
    (r3 : ∀ w, Pipeline.arrRef spec3 w ≠ b) : W8 m ρ c (Proc.devRef .tc b) = m ((c : Thread nD τ).loc b) :=
  (W8_of_ne m ρ c b r3).trans ((keep3 m ρ c b h3).trans (arg_at6 m ρ c b h0 r0 h1 r1 h2 r2))

/-! ## The row selectors and edge targets read off the integer arguments -/

/-- Node → entity row: the node's entity number, negative numbers wrapped, clamped into the table. -/
abbrev selN : Fin 100000 → Fin 50000 :=
  GatherRows.src (N := 50000) (by decide) (wrapCol 50000#32 bcast_S_S100000 bcast_S100000_S100000x1_0 (m ((c : Thread nD τ).loc main_arg0)))
/-- Edge → relation row. -/
abbrev selT : Fin 500000 → Fin 500 :=
  GatherRows.src (N := 500) (by decide) (wrapCol 500#32 bcast_S_S500000 bcast_S500000_S500000x1_0 (m ((c : Thread nD τ).loc main_arg1)))
/-- Edge → source node row. -/
abbrev selS : Fin 500000 → Fin 100000 :=
  GatherRows.src (N := 100000) (by decide) (wrapCol 100000#32 bcast_S_S500000 bcast_S500000_S500000x1_0 (m ((c : Thread nD τ).loc main_arg2)))
/-- Edge → destination node, when it is one. -/
abbrev tD : Fin 500000 → Option (Fin 100000) :=
  ScatterRows.tgt (N := 100000) (rawCol bcast_S500000_S500000x1_0 (m ((c : Thread nD τ).loc main_arg3)))
/-- Edge → source node as a scatter target, when it is one. -/
abbrev tS : Fin 500000 → Option (Fin 100000) :=
  ScatterRows.tgt (N := 100000) (rawCol bcast_S500000_S500000x1_0 (m ((c : Thread nD τ).loc main_arg2)))

/-! ## The first host stretch -/

set_option maxHeartbeats 1000000 in
theorem at1_v34 : W1 m ρ c (Proc.devRef .tc main_v34) = gatherRows (m ((c : Thread nD τ).loc main_arg4)) (selN m c) := by
  show StableHlo.after hostOps0 (W0 m ρ c) (Proc.devRef .tc main_v34) = _
  after_results_simp
  exact gather2_eq (N := 50000) (M := 100000) (C := 256) (by decide) gather_S50000x256_S100000x1_S100000x256_1_0_n_n_0_1_1256_wf _ _

set_option maxHeartbeats 1000000 in
theorem at1_v33 : W1 m ρ c (Proc.devRef .tc main_v33) = gatherRows (m ((c : Thread nD τ).loc main_arg5)) (selT m c) := by
  show StableHlo.after hostOps0 (W0 m ρ c) (Proc.devRef .tc main_v33) = _
  after_results_simp
  exact gather2_eq (N := 500) (M := 500000) (C := 256) (by decide) gather_S500x256_S500000x1_S500000x256_1_0_n_n_0_1_1256_wf _ _

set_option maxHeartbeats 1000000 in
theorem at1_v46 : W1 m ρ c (Proc.devRef .tc main_v46)
    = gatherRows (gatherRows (m ((c : Thread nD τ).loc main_arg4)) (selN m c)) (selS m c) := by
  show StableHlo.after hostOps0 (W0 m ρ c) (Proc.devRef .tc main_v46) = _
  after_results_simp
  refine (gather2_eq (N := 100000) (M := 500000) (C := 256) (by decide) gather_S100000x256_S500000x1_S500000x256_1_0_n_n_0_1_1256_wf _ _).trans ?_
  exact congrArg (fun x => gatherRows x (selS m c))
    (gather2_eq (N := 50000) (M := 100000) (C := 256) (by decide) gather_S50000x256_S100000x1_S100000x256_1_0_n_n_0_1_1256_wf _ _)

set_option maxHeartbeats 1000000 in
theorem at1_v35 : W1 m ρ c (Proc.devRef .tc main_v35) = m ((c : Thread nD τ).loc main_arg6) := by
  show StableHlo.after hostOps0 (W0 m ρ c) (Proc.devRef .tc main_v35) = _
  after_results_simp
  rfl
set_option maxHeartbeats 1000000 in
theorem at1_v36 : W1 m ρ c (Proc.devRef .tc main_v36) = m ((c : Thread nD τ).loc main_arg7) := by
  show StableHlo.after hostOps0 (W0 m ρ c) (Proc.devRef .tc main_v36) = _
  after_results_simp
  rfl
set_option maxHeartbeats 1000000 in
theorem at1_v37 : W1 m ρ c (Proc.devRef .tc main_v37) = m ((c : Thread nD τ).loc main_arg9) := by
  show StableHlo.after hostOps0 (W0 m ρ c) (Proc.devRef .tc main_v37) = _
  after_results_simp
  rfl
set_option maxHeartbeats 1000000 in
theorem at1_v38 : W1 m ρ c (Proc.devRef .tc main_v38) = m ((c : Thread nD τ).loc main_arg10) := by
  show StableHlo.after hostOps0 (W0 m ρ c) (Proc.devRef .tc main_v38) = _
  after_results_simp
  rfl
set_option maxHeartbeats 1000000 in
theorem at1_v39 : W1 m ρ c (Proc.devRef .tc main_v39) = m ((c : Thread nD τ).loc main_arg12) := by
  show StableHlo.after hostOps0 (W0 m ρ c) (Proc.devRef .tc main_v39) = _
  after_results_simp
  rfl

/-- The degrees by destination, as the first stretch computes them. -/
theorem deg_eq (col : IVec ⟨2, ![500000, 1]⟩ 32) :
    Host.scatterAdd (F := Ideal) scatter_S100000_S500000x1_S500000_n_0_0_1
      (broadcastInDim S100000 ![] bcast_S_S100000 (constant (F := Ideal) S_ .f32 0x00000000#32)) col
      (broadcastInDim S500000 ![] bcast_S_S500000 (constant (F := Ideal) S_ .f32 0x3F800000#32))
    = degVec (ScatterRows.tgt (N := 100000) col) :=
  scatter1_ones_eq (N := 100000) (M := 500000) scatter_S100000_S500000x1_S500000_n_0_0_1_wf bcast_S_S100000 bcast_S_S500000 col

set_option maxHeartbeats 1000000 in
theorem at1_v11 : W1 m ρ c (Proc.devRef .tc main_v11) = invDeg (tD m c) := by
  show StableHlo.after hostOps0 (W0 m ρ c) (Proc.devRef .tc main_v11) = _
  after_results_simp
  show shapeCast (⟨2, ![100000, 1]⟩ : Shape) _ shapeCasts_S100000_S100000x1 = _
  rw [col_reshape, deg_eq]
  exact invDeg_vec bcast_S_S100000 _

set_option maxHeartbeats 1000000 in
theorem at1_v15 : W1 m ρ c (Proc.devRef .tc main_v15) = rsqrtDeg (tS m c) := by
  show StableHlo.after hostOps0 (W0 m ρ c) (Proc.devRef .tc main_v15) = _
  after_results_simp
  show shapeCast (⟨2, ![100000, 1]⟩ : Shape) _ shapeCasts_S100000_S100000x1 = _
  rw [col_reshape, deg_eq]
  exact rsqrtDeg_vec bcast_S_S100000 _

set_option maxHeartbeats 1000000 in
theorem at1_v19 : W1 m ρ c (Proc.devRef .tc main_v19) = rsqrtDeg (tD m c) := by
  show StableHlo.after hostOps0 (W0 m ρ c) (Proc.devRef .tc main_v19) = _
  after_results_simp
  show shapeCast (⟨2, ![100000, 1]⟩ : Shape) _ shapeCasts_S100000_S100000x1 = _
  rw [col_reshape, deg_eq]
  exact rsqrtDeg_vec bcast_S_S100000 _

/-! ## Buffers carried across segments -/

theorem carry13 (b : Ref sig .tc) (r0 : ∀ w, Pipeline.arrRef spec0 w ≠ b) (h1 : b ∉ wr1) :
    W3 m ρ c (Proc.devRef .tc b) = W1 m ρ c (Proc.devRef .tc b) :=
  (keep1 m ρ c b h1).trans (W2_of_ne m ρ c b r0)

theorem carry17 (b : Ref sig .tc) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3) :
    W7 m ρ c (Proc.devRef .tc b) = W1 m ρ c (Proc.devRef .tc b) :=
  (keep3 m ρ c b h3).trans ((W6_of_ne m ρ c b r2).trans ((keep2 m ρ c b h2).trans ((W4_of_ne m ρ c b r1).trans
    (carry13 m ρ c b r0 h1))))

theorem carry19 (b : Ref sig .tc) (r0 : ∀ w, Pipeline.arrRef spec0 w ≠ b) (h1 : b ∉ wr1)
    (r1 : ∀ w, Pipeline.arrRef spec1 w ≠ b) (h2 : b ∉ wr2) (r2 : ∀ w, Pipeline.arrRef spec2 w ≠ b) (h3 : b ∉ wr3)
    (r3 : ∀ w, Pipeline.arrRef spec3 w ≠ b) (h4 : b ∉ wr4) :
    W9 m ρ c (Proc.devRef .tc b) = W1 m ρ c (Proc.devRef .tc b) :=
  (keep4 m ρ c b h4).trans ((W8_of_ne m ρ c b r3).trans (carry17 m ρ c b r0 h1 r1 h2 r2 h3))

theorem carry57 (b : Ref sig .tc) (r2 : ∀ w, Pipeline.arrRef spec2 w ≠ b) (h3 : b ∉ wr3) :
    W7 m ρ c (Proc.devRef .tc b) = W5 m ρ c (Proc.devRef .tc b) :=
  (keep3 m ρ c b h3).trans (W6_of_ne m ρ c b r2)

/-- The inverse-degree column is an input of region 1: an input window's array is what it was at entry. -/
theorem in1_v11 : W4 m ρ c (Proc.devRef .tc main_v11) = W3 m ρ c (Proc.devRef .tc main_v11) :=
  (W4_arr m ρ c 3).trans (((dat1 (V3 m ρ) c).arrAt_in 3 rfl cfg1.N).trans (A_eq1 (V3 m ρ) c 3))

theorem carry17_v11 : W7 m ρ c (Proc.devRef .tc main_v11) = W1 m ρ c (Proc.devRef .tc main_v11) :=
  (keep3 m ρ c main_v11 (by decide)).trans ((W6_of_ne m ρ c main_v11 (by decide)).trans
    ((keep2 m ρ c main_v11 (by decide)).trans ((in1_v11 m ρ c).trans (carry13 m ρ c main_v11 (by decide) (by decide)))))

/-! ## Region 0, the second stretch, region 1: the first layer -/

theorem at2_v47 : W2 m ρ c (Proc.devRef .tc main_v47)
    = proj (gatherRows (gatherRows (m ((c : Thread nD τ).loc main_arg4)) (selN m c)) (selS m c))
        (gatherRows (m ((c : Thread nD τ).loc main_arg5)) (selT m c)) (m ((c : Thread nD τ).loc main_arg6)) := by
  refine (W2_arr m ρ c 3).trans ((Cert.CompGcn.Region0.arr (V1 m ρ) c).trans ?_)
  show proj (W1 m ρ c (Proc.devRef .tc main_v46)) (W1 m ρ c (Proc.devRef .tc main_v33)) (W1 m ρ c (Proc.devRef .tc main_v35)) = _
  rw [at1_v46, at1_v33, at1_v35]

set_option maxHeartbeats 1000000 in
theorem at3_v50 : W3 m ρ c (Proc.devRef .tc main_v50) = scatterRows (tD m c) (W2 m ρ c (Proc.devRef .tc main_v47)) := by
  show StableHlo.after hostOps1 (W2 m ρ c) (Proc.devRef .tc main_v50) = _
  after_results_simp
  rw [arg_at2 m ρ c main_arg3 (by decide) (by decide)]
  exact scatter2_eq (N := 100000) (M := 500000) (C := 128) scatter_S100000x128_S500000x1_S500000x128_1_0_0_1_wf bcast_S_S100000x128 _ _

theorem at4_v51 : W4 m ρ c (Proc.devRef .tc main_v51)
    = layer1 (selN m c) (selT m c) (selS m c) (tD m c) (m ((c : Thread nD τ).loc main_arg4))
        (m ((c : Thread nD τ).loc main_arg5)) (m ((c : Thread nD τ).loc main_arg6)) (m ((c : Thread nD τ).loc main_arg7)) := by
  refine (W4_arr m ρ c 4).trans ((Cert.CompGcn.Region1.arr (V3 m ρ) c).trans ?_)
  show upd (W3 m ρ c (Proc.devRef .tc main_v50)) (W3 m ρ c (Proc.devRef .tc main_v34)) (W3 m ρ c (Proc.devRef .tc main_v36))
    (W3 m ρ c (Proc.devRef .tc main_v11)) = _
  rw [at3_v50, at2_v47, carry13 m ρ c main_v34 (by decide) (by decide), at1_v34,
    carry13 m ρ c main_v36 (by decide) (by decide), at1_v36, carry13 m ρ c main_v11 (by decide) (by decide), at1_v11]
  rfl

/-! ## The third stretch, region 2, the fourth stretch: the composed edge rows and their sum -/

set_option maxHeartbeats 1000000 in
theorem at5_v52 : W5 m ρ c (Proc.devRef .tc main_v52) = W4 m ρ c (Proc.devRef .tc main_v51) := by
  show StableHlo.after hostOps2 (W4 m ρ c) (Proc.devRef .tc main_v52) = _
  after_results_simp
  rfl

set_option maxHeartbeats 1000000 in
theorem at5_v67 : W5 m ρ c (Proc.devRef .tc main_v67) = gatherRows (W4 m ρ c (Proc.devRef .tc main_v51)) (selS m c) := by
  show StableHlo.after hostOps2 (W4 m ρ c) (Proc.devRef .tc main_v67) = _
  after_results_simp
  rw [arg_at4 m ρ c main_arg2 (by decide) (by decide) (by decide) (by decide)]
  exact gather2_eq (N := 100000) (M := 500000) (C := 128) (by decide) gather_S100000x128_S500000x1_S500000x128_1_0_n_n_0_1_1128_wf _ _

set_option maxHeartbeats 1000000 in
theorem at5_v60 : W5 m ρ c (Proc.devRef .tc main_v60)
    = gatherRows (matProd (m ((c : Thread nD τ).loc main_arg5)) (m ((c : Thread nD τ).loc main_arg8))) (selT m c) := by
  show StableHlo.after hostOps2 (W4 m ρ c) (Proc.devRef .tc main_v60) = _
  after_results_simp
  rw [arg_at4 m ρ c main_arg5 (by decide) (by decide) (by decide) (by decide),
    arg_at4 m ρ c main_arg8 (by decide) (by decide) (by decide) (by decide),
    arg_at4 m ρ c main_arg1 (by decide) (by decide) (by decide) (by decide)]
  refine (gather2_eq (N := 500) (M := 500000) (C := 128) (by decide) gather_S500x128_S500000x1_S500000x128_1_0_n_n_0_1_1128_wf _ _).trans ?_
  exact congrArg (fun x => gatherRows x (selT m c))
    (host_prod dot_S500x256_S256x128_S500x128_1_0_0_1_n_n rfl rfl rfl rfl rfl rfl _ _)

theorem at6_v68 : W6 m ρ c (Proc.devRef .tc main_v68)
    = had (gatherRows (W4 m ρ c (Proc.devRef .tc main_v51)) (selS m c))
        (gatherRows (matProd (m ((c : Thread nD τ).loc main_arg5)) (m ((c : Thread nD τ).loc main_arg8))) (selT m c)) := by
  refine (W6_arr m ρ c 2).trans ((Cert.CompGcn.Region2.arr (V5 m ρ) c).trans ?_)
  show had (W5 m ρ c (Proc.devRef .tc main_v67)) (W5 m ρ c (Proc.devRef .tc main_v60)) = _
  rw [at5_v67, at5_v60]

set_option maxHeartbeats 1000000 in
theorem at7_v71 : W7 m ρ c (Proc.devRef .tc main_v71) = scatterRows (tD m c) (W6 m ρ c (Proc.devRef .tc main_v68)) := by
  show StableHlo.after hostOps3 (W6 m ρ c) (Proc.devRef .tc main_v71) = _
  after_results_simp
  rw [arg_at6 m ρ c main_arg3 (by decide) (by decide) (by decide) (by decide) (by decide) (by decide)]
  exact scatter2_eq (N := 100000) (M := 500000) (C := 128) scatter_S100000x128_S500000x1_S500000x128_1_0_0_1_wf bcast_S_S100000x128 _ _

/-! ## Region 3, the last stretch, region 4: the second layer and the read-out -/

theorem at8_v72_1 : W8 m ρ c (Proc.devRef .tc main_v72_1)
    = rowScale (updLate (scatterRows (tD m c) (W6 m ρ c (Proc.devRef .tc main_v68))) (W4 m ρ c (Proc.devRef .tc main_v51))
        (m ((c : Thread nD τ).loc main_arg9)) (m ((c : Thread nD τ).loc main_arg10)) (invDeg (tD m c))) (rsqrtDeg (tS m c)) := by
  refine (W8_arr m ρ c 7).trans ((Cert.CompGcn.Region3.arr7 (V7 m ρ) c).trans ?_)
  show rowScale (updLate (W7 m ρ c (Proc.devRef .tc main_v71)) (W7 m ρ c (Proc.devRef .tc main_v52))
    (W7 m ρ c (Proc.devRef .tc main_v37)) (W7 m ρ c (Proc.devRef .tc main_v38)) (W7 m ρ c (Proc.devRef .tc main_v11)))
    (W7 m ρ c (Proc.devRef .tc main_v15)) = _
  rw [at7_v71, carry57 m ρ c main_v52 (by decide) (by decide), at5_v52,
    carry17 m ρ c main_v37 (by decide) (by decide) (by decide) (by decide) (by decide) (by decide), at1_v37,
    carry17 m ρ c main_v38 (by decide) (by decide) (by decide) (by decide) (by decide) (by decide), at1_v38,
    carry17_v11 m ρ c, at1_v11,
    carry17 m ρ c main_v15 (by decide) (by decide) (by decide) (by decide) (by decide) (by decide), at1_v15]

set_option maxHeartbeats 1000000 in
theorem at9_v82 : W9 m ρ c (Proc.devRef .tc main_v82)
    = scatterRows (tD m c) (gatherRows (W8 m ρ c (Proc.devRef .tc main_v72_1)) (selS m c)) := by
  show StableHlo.after hostOps4 (W8 m ρ c) (Proc.devRef .tc main_v82) = _
  after_results_simp
  rw [arg_at8 m ρ c main_arg3 (by decide) (by decide) (by decide) (by decide) (by decide) (by decide) (by decide) (by decide),
    arg_at8 m ρ c main_arg2 (by decide) (by decide) (by decide) (by decide) (by decide) (by decide) (by decide) (by decide)]
  refine (scatter2_eq (N := 100000) (M := 500000) (C := 256) scatter_S100000x256_S500000x1_S500000x256_1_0_0_1_wf bcast_S_S100000x256 _ _).trans ?_
  exact congrArg (fun x => scatterRows (tD m c) x)
    (gather2_eq (N := 100000) (M := 500000) (C := 256) (by decide) gather_S100000x256_S500000x1_S500000x256_1_0_n_n_0_1_1256_wf _ _)

/-- THE KERNEL'S RESULT: the last boundary's contents at the result buffer are the late arrangement of the network
    applied to the launch arguments. -/
theorem result_eq : W10 m ρ c (Proc.devRef .tc main_v83)
    = netK (selN m c) (selT m c) (selS m c) (tD m c) (tS m c) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg12)) := by
  refine (W10_arr m ρ c 3).trans ((Cert.CompGcn.Region4.arr (V9 m ρ) c).trans ?_)
  show spectral (W9 m ρ c (Proc.devRef .tc main_v82)) (W9 m ρ c (Proc.devRef .tc main_v19)) (W9 m ρ c (Proc.devRef .tc main_v39)) = _
  rw [at9_v82, at8_v72_1, at6_v68, at4_v51,
    carry19 m ρ c main_v19 (by decide) (by decide) (by decide) (by decide) (by decide) (by decide) (by decide) (by decide), at1_v19,
    carry19 m ρ c main_v39 (by decide) (by decide) (by decide) (by decide) (by decide) (by decide) (by decide) (by decide), at1_v39]
  rfl

end Cert.KernelIdeal.Fold

end
-- ==== Proof.RefSide.lean ====
/-
  The reference network read as the per-edge arrangement of the two-layer relational graph network.

  The reference fetches node rows and relation rows by index columns whose negative entries are first wrapped, counts
  in- and out-degrees by scattering ones into zeros, and then runs: a first layer (per-edge products projected, summed at
  the destinations, scaled by the inverse in-degree, plus the node's own projection, clamped); a second layer whose
  relation rows are projected per edge; and a spectral read-out whose per-edge rows are scaled by the gathered source
  normalisation before they are summed. Stage by stage each host operation is the whole-matrix function it denotes, and
  the last stage is `netR` at the selectors and targets the four index vectors name.
-/
import proofs.«110422_j61856118997742_2_alg».proof.Proof.Gen.ReferenceIdeal.Read
import proofs.«110422_j61856118997742_2_alg».proof.Proof.LibRelGraphHost

noncomputable section

namespace Cert.CompGcn.RefSide

open Cert.ReferenceIdeal Cert.ReferenceIdeal.Gen Cert.ReferenceIdeal.Read
open Idealize.ShloMosaic Idealize.ShloMosaic.ValueIdx Cert.Layers Cert.LibMatProd Cert.CompGcn Cert.CompGcn.HostForms
open Idealize.ShloMosaic.GatherRows Idealize.ShloMosaic.ScatterRows

variable (x0 : (⟨S100000, .i32⟩ : BufTy).Contents (Elt Ideal))
  (x1 x2 x3 : (⟨S500000, .i32⟩ : BufTy).Contents (Elt Ideal))
  (x4 : (⟨S50000x256, .f32⟩ : BufTy).Contents (Elt Ideal))
  (x5 : (⟨S500x256, .f32⟩ : BufTy).Contents (Elt Ideal))
  (x6 x7 x8 : (⟨S256x128, .f32⟩ : BufTy).Contents (Elt Ideal))
  (x9 x10 : (⟨S128x256, .f32⟩ : BufTy).Contents (Elt Ideal))
  (x12 : (⟨S256x256, .f32⟩ : BufTy).Contents (Elt Ideal))

/-! ## The selectors and targets the index vectors name -/

/-- The entity row of each node. -/
def selN : Fin 100000 → Fin 50000 :=
  GatherRows.src (N := 50000) (by decide) (wrapCol (M := 100000) 50000#32 bcast_S_S100000 bcast_S100000_S100000x1_0 x0)
/-- The relation row of each edge. -/
def selT : Fin 500000 → Fin 500 :=
  GatherRows.src (N := 500) (by decide) (wrapCol (M := 500000) 500#32 bcast_S_S500000 bcast_S500000_S500000x1_0 x1)
/-- The source node of each edge. -/
def selS : Fin 500000 → Fin 100000 :=
  GatherRows.src (N := 100000) (by decide) (wrapCol (M := 500000) 100000#32 bcast_S_S500000 bcast_S500000_S500000x1_0 x2)
/-- The destination node of each edge, as a scatter target. -/
def tD : Fin 500000 → Option (Fin 100000) :=
  ScatterRows.tgt (N := 100000) (rawCol (M := 500000) bcast_S500000_S500000x1_0 x3)
/-- The source node of each edge, as a scatter target. -/
def tS : Fin 500000 → Option (Fin 100000) :=
  ScatterRows.tgt (N := 100000) (rawCol (M := 500000) bcast_S500000_S500000x1_0 x2)

/-! ## The index columns -/

theorem v5_eq : val_main_v5 (F := Ideal) x0 = wrapCol (M := 100000) 50000#32 bcast_S_S100000 bcast_S100000_S100000x1_0 x0 := rfl
theorem v12_eq : val_main_v12 (F := Ideal) x1 = wrapCol (M := 500000) 500#32 bcast_S_S500000 bcast_S500000_S500000x1_0 x1 := rfl
theorem v30_eq : val_main_v30 (F := Ideal) x2 = wrapCol (M := 500000) 100000#32 bcast_S_S500000 bcast_S500000_S500000x1_0 x2 := rfl
theorem v49_eq : val_main_v49 (F := Ideal) x2 = wrapCol (M := 500000) 100000#32 bcast_S_S500000 bcast_S500000_S500000x1_0 x2 := rfl
theorem v74_eq : val_main_v74 (F := Ideal) x2 = wrapCol (M := 500000) 100000#32 bcast_S_S500000 bcast_S500000_S500000x1_0 x2 := rfl
theorem v81_eq : val_main_v81 (F := Ideal) x2 = wrapCol (M := 500000) 100000#32 bcast_S_S500000 bcast_S500000_S500000x1_0 x2 := rfl
theorem v16_eq : val_main_v16 (F := Ideal) x3 = rawCol (M := 500000) bcast_S500000_S500000x1_0 x3 := rfl
theorem v19_eq : val_main_v19 (F := Ideal) x2 = rawCol (M := 500000) bcast_S500000_S500000x1_0 x2 := rfl
theorem v35_eq : val_main_v35 (F := Ideal) x3 = rawCol (M := 500000) bcast_S500000_S500000x1_0 x3 := rfl
theorem v54_eq : val_main_v54 (F := Ideal) x3 = rawCol (M := 500000) bcast_S500000_S500000x1_0 x3 := rfl
theorem v87_eq : val_main_v87 (F := Ideal) x3 = rawCol (M := 500000) bcast_S500000_S500000x1_0 x3 := rfl

/-! ## The fetched rows and the degrees -/

/-- The nodes' entity rows. -/
theorem v6_eq : val_main_v6 (F := Ideal) x0 x4 = gatherRows (x4 : Mat 50000 256) (selN x0) := by
  unfold val_main_v6
  rw [v5_eq]
  exact gather2_eq (N := 50000) (M := 100000) (C := 256) (by decide) gather_S50000x256_S100000x1_S100000x256_1_0_n_n_0_1_1256_wf x4 _

/-- The edges' relation rows. -/
theorem v13_eq : val_main_v13 (F := Ideal) x1 x5 = gatherRows (x5 : Mat 500 256) (selT x1) := by
  unfold val_main_v13
  rw [v12_eq]
  exact gather2_eq (N := 500) (M := 500000) (C := 256) (by decide) gather_S500x256_S500000x1_S500000x256_1_0_n_n_0_1_1256_wf x5 _

/-- The in-degrees. -/
theorem v17_eq : val_main_v17 (F := Ideal) x3 = degVec (tD x3) := by
  unfold val_main_v17
  rw [v16_eq]
  exact scatter1_ones_eq (N := 100000) (M := 500000) scatter_S100000_S500000x1_S500000_n_0_0_1_wf bcast_S_S100000 bcast_S_S500000 _

/-- The out-degrees. -/
theorem v20_eq : val_main_v20 (F := Ideal) x2 = degVec (tS x2) := by
  unfold val_main_v20
  rw [v19_eq]
  exact scatter1_ones_eq (N := 100000) (M := 500000) scatter_S100000_S500000x1_S500000_n_0_0_1_wf bcast_S_S100000 bcast_S_S500000 _

/-- One over the in-degree taken at least one. -/
theorem v24_eq : colOf (val_main_v24 (F := Ideal) x3) = invDeg (tD x3) := by
  unfold val_main_v24 val_main_v22
  rw [v17_eq]
  exact invDeg_vec (N := 100000) bcast_S_S100000 (tD x3)

/-- The inverse square root of the out-degree taken at least one. -/
theorem v65_eq : colOf (val_main_v65 (F := Ideal) x2) = rsqrtDeg (tS x2) := by
  unfold val_main_v65 val_main_v64
  rw [v20_eq]
  exact rsqrtDeg_vec (N := 100000) bcast_S_S100000 (tS x2)

/-- The inverse square root of the in-degree taken at least one. -/
theorem v68_eq : colOf (val_main_v68 (F := Ideal) x3) = rsqrtDeg (tD x3) := by
  unfold val_main_v68 val_main_v67
  rw [v17_eq]
  exact rsqrtDeg_vec (N := 100000) bcast_S_S100000 (tD x3)

/-! ## The first layer -/

/-- The source rows of the edges. -/
theorem v31_eq : val_main_v31 (F := Ideal) x0 x2 x4 = gatherRows (gatherRows (x4 : Mat 50000 256) (selN x0)) (selS x2) := by
  unfold val_main_v31
  rw [v30_eq, v6_eq]
  exact gather2_eq (N := 100000) (M := 500000) (C := 256) (by decide) gather_S100000x256_S500000x1_S500000x256_1_0_n_n_0_1_1256_wf _ _

/-- The composed edge rows projected. -/
theorem v33_eq : val_main_v33 (F := Ideal) x0 x1 x2 x4 x5 x6
    = proj (gatherRows (gatherRows (x4 : Mat 50000 256) (selN x0)) (selS x2)) (gatherRows (x5 : Mat 500 256) (selT x1)) (x6 : Mat 256 128) := by
  unfold val_main_v33 val_main_v32
  rw [v31_eq, v13_eq]
  exact host_proj dot_S500000x256_S256x128_S500000x128_1_0_0_1_n_n rfl rfl rfl rfl rfl rfl _ _ x6

/-- The projected edge rows summed at their destinations. -/
theorem v36_eq : val_main_v36 (F := Ideal) x0 x1 x2 x3 x4 x5 x6
    = scatterRows (tD x3) (proj (gatherRows (gatherRows (x4 : Mat 50000 256) (selN x0)) (selS x2)) (gatherRows (x5 : Mat 500 256) (selT x1)) (x6 : Mat 256 128)) := by
  unfold val_main_v36
  rw [v35_eq, v33_eq]
  exact scatter2_eq (N := 100000) (M := 500000) (C := 128) scatter_S100000x128_S500000x1_S500000x128_1_0_0_1_wf bcast_S_S100000x128 _ _

theorem v37_eq : val_main_v37 (F := Ideal) x3 = invDeg (tD x3) := by
  unfold val_main_v37
  rw [col_bcast (M := 100000) bcast_S100000_S100000x1_0, v24_eq]

/-- The first layer's node rows. -/
def H1 : Mat 100000 128 := layer1 (selN x0) (selT x1) (selS x2) (tD x3) (x4 : Mat 50000 256) (x5 : Mat 500 256) (x6 : Mat 256 128) (x7 : Mat 256 128)

theorem v42_eq : val_main_v42 (F := Ideal) x0 x1 x2 x3 x4 x5 x6 x7 = H1 x0 x1 x2 x3 x4 x5 x6 x7 := by
  unfold val_main_v42 val_main_v41 val_main_v39 val_main_v38 val_main_v40
  rw [v37_eq, v36_eq, v6_eq]
  exact host_upd dot_S100000x256_S256x128_S100000x128_1_0_0_1_n_n rfl rfl rfl rfl rfl rfl bcast_S_S100000x128
    bcast_S100000x1_S100000x128_0_1 _ _ x7 _

/-! ## The second layer -/

/-- The edges' relation rows projected. -/
theorem v43_eq : val_main_v43 (F := Ideal) x1 x5 x8 = matProd (gatherRows (x5 : Mat 500 256) (selT x1)) (x8 : Mat 256 128) := by
  unfold val_main_v43
  rw [v13_eq]
  exact host_dot_eq dot_S500000x256_S256x128_S500000x128_1_0_0_1_n_n rfl rfl rfl rfl rfl rfl _ x8

theorem v50_eq : val_main_v50 (F := Ideal) x0 x1 x2 x3 x4 x5 x6 x7 = gatherRows (H1 x0 x1 x2 x3 x4 x5 x6 x7) (selS x2) := by
  unfold val_main_v50
  rw [v49_eq, v42_eq]
  exact gather2_eq (N := 100000) (M := 500000) (C := 128) (by decide) gather_S100000x128_S500000x1_S500000x128_1_0_n_n_0_1_1128_wf _ _

theorem v52_eq : val_main_v52 (F := Ideal) x0 x1 x2 x3 x4 x5 x6 x7 x8 x9
    = matProd (had (gatherRows (H1 x0 x1 x2 x3 x4 x5 x6 x7) (selS x2)) (matProd (gatherRows (x5 : Mat 500 256) (selT x1)) (x8 : Mat 256 128))) (x9 : Mat 128 256) := by
  unfold val_main_v52 val_main_v51
  rw [v50_eq, v43_eq]
  exact host_proj dot_S500000x128_S128x256_S500000x256_1_0_0_1_n_n rfl rfl rfl rfl rfl rfl _ _ x9

theorem v55_eq : val_main_v55 (F := Ideal) x0 x1 x2 x3 x4 x5 x6 x7 x8 x9
    = scatterRows (tD x3) (matProd (had (gatherRows (H1 x0 x1 x2 x3 x4 x5 x6 x7) (selS x2)) (matProd (gatherRows (x5 : Mat 500 256) (selT x1)) (x8 : Mat 256 128))) (x9 : Mat 128 256)) := by
  unfold val_main_v55
  rw [v54_eq, v52_eq]
  exact scatter2_eq (N := 100000) (M := 500000) (C := 256) scatter_S100000x256_S500000x1_S500000x256_1_0_0_1_wf bcast_S_S100000x256 _ _

theorem v56_eq : val_main_v56 (F := Ideal) x3 = invDeg (tD x3) := by
  unfold val_main_v56
  rw [col_bcast (M := 100000) bcast_S100000_S100000x1_0, v24_eq]

/-- The second layer's node rows. -/
def H2 : Mat 100000 256 :=
  upd (scatterRows (tD x3) (matProd (had (gatherRows (H1 x0 x1 x2 x3 x4 x5 x6 x7) (selS x2)) (matProd (gatherRows (x5 : Mat 500 256) (selT x1)) (x8 : Mat 256 128))) (x9 : Mat 128 256)))
    (H1 x0 x1 x2 x3 x4 x5 x6 x7) (x10 : Mat 128 256) (invDeg (tD x3))

theorem v61_eq : val_main_v61 (F := Ideal) x0 x1 x2 x3 x4 x5 x6 x7 x8 x9 x10 = H2 x0 x1 x2 x3 x4 x5 x6 x7 x8 x9 x10 := by
  unfold val_main_v61 val_main_v60 val_main_v58 val_main_v57 val_main_v59
  rw [v56_eq, v55_eq, v42_eq]
  exact host_upd dot_S100000x128_S128x256_S100000x256_1_0_0_1_n_n rfl rfl rfl rfl rfl rfl bcast_S_S100000x256
    bcast_S100000x1_S100000x256_0_1 _ _ x10 _

/-! ## The spectral read-out -/

theorem v75_eq : val_main_v75 (F := Ideal) x0 x1 x2 x3 x4 x5 x6 x7 x8 x9 x10 = gatherRows (H2 x0 x1 x2 x3 x4 x5 x6 x7 x8 x9 x10) (selS x2) := by
  unfold val_main_v75
  rw [v74_eq, v61_eq]
  exact gather2_eq (N := 100000) (M := 500000) (C := 256) (by decide) gather_S100000x256_S500000x1_S500000x256_1_0_n_n_0_1_1256_wf _ _

/-- The source normalisation fetched per edge. -/
theorem v83_eq : val_main_v83 (F := Ideal) x2 = gatherRows (rsqrtDeg (tS x2)) (selS x2) := by
  unfold val_main_v83 val_main_v82
  rw [col_bcast (M := 500000) bcast_S500000_S500000x1_0, v81_eq]
  refine (gather1_eq (N := 100000) (M := 500000) (by decide) gather_S100000_S500000x1_S500000_n_0_n_n_0_1_1_wf _ _).trans ?_
  rw [v65_eq]
  rfl

theorem v85_eq : val_main_v85 (F := Ideal) x0 x1 x2 x3 x4 x5 x6 x7 x8 x9 x10
    = rowScale (gatherRows (H2 x0 x1 x2 x3 x4 x5 x6 x7 x8 x9 x10) (selS x2)) (gatherRows (rsqrtDeg (tS x2)) (selS x2)) := by
  unfold val_main_v85 val_main_v84
  rw [v83_eq, v75_eq]
  exact host_rowScale (M := 500000) (N := 256) bcast_S500000x1_S500000x256_0_1 _ _

theorem v88_eq : val_main_v88 (F := Ideal) x0 x1 x2 x3 x4 x5 x6 x7 x8 x9 x10
    = scatterRows (tD x3) (rowScale (gatherRows (H2 x0 x1 x2 x3 x4 x5 x6 x7 x8 x9 x10) (selS x2)) (gatherRows (rsqrtDeg (tS x2)) (selS x2))) := by
  unfold val_main_v88
  rw [v87_eq, v85_eq]
  exact scatter2_eq (N := 100000) (M := 500000) (C := 256) scatter_S100000x256_S500000x1_S500000x256_1_0_0_1_wf bcast_S_S100000x256 _ _

theorem v89_eq : val_main_v89 (F := Ideal) x3 = rsqrtDeg (tD x3) := by
  unfold val_main_v89
  rw [col_bcast (M := 100000) bcast_S100000_S100000x1_0, v68_eq]

theorem v93_eq : val_main_v93 (F := Ideal) x0 x1 x2 x3 x4 x5 x6 x7 x8 x9 x10 x12
    = spectral (scatterRows (tD x3) (rowScale (gatherRows (H2 x0 x1 x2 x3 x4 x5 x6 x7 x8 x9 x10) (selS x2)) (gatherRows (rsqrtDeg (tS x2)) (selS x2))))
        (rsqrtDeg (tD x3)) (x12 : Mat 256 256) := by
  unfold val_main_v93 val_main_v92 val_main_v91 val_main_v90
  rw [v89_eq, v88_eq]
  exact host_spectral dot_S100000x256_S256x256_S100000x256_1_0_0_1_n_n rfl rfl rfl rfl rfl rfl bcast_S_S100000x256
    bcast_S100000x1_S100000x256_0_1 _ _ x12

/-- The reference's result is the per-edge arrangement of the network at the selectors and targets its index vectors
    name. -/
theorem ref_eq : val_main_v93 (F := Ideal) x0 x1 x2 x3 x4 x5 x6 x7 x8 x9 x10 x12
    = netR
        (GatherRows.src (N := 50000) (by decide) (wrapCol (M := 100000) 50000#32 bcast_S_S100000 bcast_S100000_S100000x1_0 x0))
        (GatherRows.src (N := 500) (by decide) (wrapCol (M := 500000) 500#32 bcast_S_S500000 bcast_S500000_S500000x1_0 x1))
        (GatherRows.src (N := 100000) (by decide) (wrapCol (M := 500000) 100000#32 bcast_S_S500000 bcast_S500000_S500000x1_0 x2))
        (ScatterRows.tgt (N := 100000) (rawCol (M := 500000) bcast_S500000_S500000x1_0 x3))
        (ScatterRows.tgt (N := 100000) (rawCol (M := 500000) bcast_S500000_S500000x1_0 x2))
        (x4 : Mat 50000 256) (x5 : Mat 500 256) (x6 : Mat 256 128) (x7 : Mat 256 128) (x8 : Mat 256 128)
        (x9 : Mat 128 256) (x10 : Mat 128 256) (x12 : Mat 256 256) :=
  (v93_eq x0 x1 x2 x3 x4 x5 x6 x7 x8 x9 x10 x12).trans rfl

end Cert.CompGcn.RefSide

end
-- ==== Proof.LibRealEntries.lean ====
/-
  Extended reals that are real numbers, and the exact operations that keep them so.

  A law that holds on the real numbers but fails at an infinity (distributivity, cancelling a common factor, the shift
  invariance of a softmax) is applied to a program read over the extended reals by first showing that every quantity in
  sight is a real number. "Is a real number" is closed under sum, difference, product, negation, maximum and minimum, the
  exponential, the quotient by a nonzero real, finite sums (hence a contraction: a finite sum of products) and the running
  maximum of finitely many reals started from minus infinity (when there is at least one of them) or from a real. A
  family of such entries is the coercion of a real-valued family.
-/
import Mathlib.Data.EReal.Inv
import Mathlib.Algebra.BigOperators.Group.Finset.Basic
import Idealize.ShloMosaic.PureOps.Ideal

namespace LibRealEntries

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

/-- A real number is neither infinity, and conversely. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The exact exponential of a real is a real. -/
theorem IsReal.exp {x : EReal} (hx : IsReal x) : IsReal (Ideal.exp x) := by
  obtain ⟨a, rfl⟩ := hx; exact ⟨Real.exp a, rfl⟩

/-- The exact quotient of a real by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact (isReal_coe a).mul (isReal_coe _)

/-- A finite sum of reals is a real. -/
theorem isReal_sum {ι : Type*} (P : Finset ι) (f : ι → EReal) (h : ∀ t ∈ P, IsReal (f t)) : IsReal (∑ t ∈ P, f t) := by
  classical
  induction P using Finset.induction_on with
  | empty => rw [Finset.sum_empty]; exact isReal_zero
  | insert a P ha ih =>
    rw [Finset.sum_insert ha]
    exact (h a (Finset.mem_insert_self a P)).add (ih fun t ht => h t (Finset.mem_insert_of_mem ht))

/-- A contraction of real entries — a finite sum of products — is a real. -/
theorem isReal_sum_mul {ι : Type*} (P : Finset ι) (f g : ι → EReal) (hf : ∀ t ∈ P, IsReal (f t)) (hg : ∀ t ∈ P, IsReal (g t)) :
    IsReal (∑ t ∈ P, f t * g t) :=
  isReal_sum P _ fun t ht => (hf t ht).mul (hg t ht)

/-- The running maximum of finitely many reals from a real start is a real. -/
theorem isReal_fold_max {ι : Type*} (P : Finset ι) (f : ι → EReal) (b : EReal) (hb : IsReal b) (h : ∀ t ∈ P, IsReal (f t)) :
    IsReal (P.fold max b f) := by
  classical
  induction P using Finset.induction_on with
  | empty => rw [Finset.fold_empty]; exact hb
  | insert a P ha ih =>
    rw [Finset.fold_insert ha]
    exact (h a (Finset.mem_insert_self a P)).max (ih fun t ht => h t (Finset.mem_insert_of_mem ht))

/-- The running maximum of finitely many reals, at least one, from minus infinity is a real. -/
theorem isReal_fold_max_bot {ι : Type*} (P : Finset ι) (hP : P.Nonempty) (f : ι → EReal) (h : ∀ t ∈ P, IsReal (f t)) :
    IsReal (P.fold max ⊥ f) := by
  classical
  obtain ⟨a, ha⟩ := hP
  rw [← Finset.insert_erase ha, Finset.fold_insert (Finset.notMem_erase a P)]
  have hrest : ∀ t ∈ P.erase a, IsReal (f t) := fun t ht => h t (Finset.mem_of_mem_erase ht)
  have hfa := h a ha
  -- the maximum of a real and the rest's running maximum from minus infinity: the rest's is a real or minus infinity
  have key : ∀ Q : Finset ι, (∀ t ∈ Q, IsReal (f t)) → IsReal (max (f a) (Q.fold max ⊥ f)) := by
    intro Q
    induction Q using Finset.induction_on with
    | empty => intro _; rw [Finset.fold_empty, max_eq_left bot_le]; exact hfa
    | insert c Q hc ih =>
      intro hQ
      rw [Finset.fold_insert hc, ← max_assoc, max_comm (f a) (f c), max_assoc]
      exact (hQ c (Finset.mem_insert_self c Q)).max (ih fun t ht => hQ t (Finset.mem_insert_of_mem ht))
  exact key _ hrest

/-- A family of real entries is the coercion of a real-valued family. -/
theorem exists_real_family {α : Type*} (f : α → EReal) (h : ∀ a, IsReal (f a)) : ∃ g : α → ℝ, ∀ a, f a = (g a : EReal) := by
  choose g hg using h
  exact ⟨g, hg⟩

end LibRealEntries
-- ==== Proof.LibRelGraphLaw.lean ====
/-
  The two arrangements of the network agree when every float input is a real number.

  Three rearrangements separate them. Fetching rows commutes with anything done row by row: projecting the relation
  rows and then fetching them is fetching and then projecting, and scaling rows by a per-row factor and then fetching
  them is fetching both and then scaling; these two hold on all extended reals, entry by entry by definition. The third
  moves the projection of the second layer across the sum over incoming edges and the row scaling:
      ∑ₖ ((∑ₑ c e k) · d) · w k j  =  (∑ₑ ∑ₖ c e k · w k j) · d,
  which is distributivity and an exchange of two finite sums. It fails at infinities, so it is proved over the real
  numbers, and everything that enters it — the composed edge rows, the weights, the inverse degree — is shown to be
  real: sums, products and maxima of reals are real, the degree is a finite count, and one over a count at least one is
  real.
-/
import proofs.«110422_j61856118997742_2_alg».proof.Proof.LibRelGraphNet
import proofs.«110422_j61856118997742_2_alg».proof.Proof.LibRealEntries

noncomputable section

namespace Cert.CompGcn

open scoped BigOperators
open Idealize.ShloMosaic Idealize.ShloMosaic.ValueIdx Cert.LibMatProd Cert.Layers LibRealEntries

variable {M N K J C E V R H O : ℕ}

theorem Z_eq : Z = 0 := Ideal.ofBits_zero_f32
theorem ONE_eq : ONE = 1 := Cert.LibPlainDot.one_f32

theorem isReal_Z : IsReal Z := by rw [Z_eq]; exact isReal_zero
theorem isReal_ONE : IsReal ONE := by rw [ONE_eq]; exact isReal_one

/-- Every entry of a family of extended reals is a real number. -/
def AllReal {ι : Type} (a : ι → EReal) : Prop := ∀ i, IsReal (a i)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Real entries are kept by every step -/

theorem allReal_gatherRows {x : Mat N C} (hx : AllReal x) (sel : Fin E → Fin N) : AllReal (gatherRows x sel) :=
  fun _ => hx _

theorem allReal_had {a b : Mat M N} (ha : AllReal a) (hb : AllReal b) : AllReal (had a b) :=
  fun i => (ha i).mul (hb i)

theorem allReal_matProd {a : Mat M K} {w : Mat K N} (ha : AllReal a) (hw : AllReal w) : AllReal (matProd a w) :=
  fun _ => isReal_sum_mul _ _ _ (fun _ _ => ha _) (fun _ _ => hw _)

theorem allReal_scatterRows {u : Mat E C} (hu : AllReal u) (tgt : Fin E → Option (Fin N)) : AllReal (scatterRows tgt u) :=
  fun _ => isReal_Z.add (isReal_sum _ _ fun _ _ => hu _)

theorem allReal_rowScale {a : Mat M N} {s : Mat M 1} (ha : AllReal a) (hs : AllReal s) : AllReal (rowScale a s) :=
  fun i => (ha i).mul (hs _)

theorem allReal_clamp {a : Mat M N} (ha : AllReal a) : AllReal (clamp a) := fun i => (ha i).max isReal_Z

theorem allReal_upd {agg : Mat M N} {h : Mat M K} {w : Mat K N} {s : Mat M 1} (hagg : AllReal agg) (hh : AllReal h)
    (hw : AllReal w) (hs : AllReal s) : AllReal (upd agg h w s) :=
  allReal_clamp fun i => (allReal_rowScale hagg hs i).add (allReal_matProd hh hw i)

theorem isReal_degree (tgt : Fin E → Option (Fin N)) (n : Fin N) : IsReal (degree tgt n) :=
  isReal_Z.add (isReal_sum _ _ fun _ _ => isReal_ONE)

/-- One over a degree taken at least one is real: the divisor is a real number at least one, so not zero. -/
theorem allReal_invDeg (tgt : Fin E → Option (Fin N)) : AllReal (invDeg tgt) := fun i => by
  have hpos : (0 : EReal) < max (degree tgt (i 0)) ONE :=
    lt_of_lt_of_le (by rw [ONE_eq]; exact zero_lt_one) (le_max_right _ _)
  exact IsReal.div isReal_ONE ((isReal_degree tgt (i 0)).max isReal_ONE) (ne_of_gt hpos)

theorem allReal_layer1 (selN : Fin N → Fin V) (selT : Fin E → Fin R) (selS : Fin E → Fin N) (tD : Fin E → Option (Fin N))
    {ent : Mat V H} {rel : Mat R H} {wm1 ws1 : Mat H O} (hent : AllReal ent) (hrel : AllReal rel) (hwm1 : AllReal wm1)
    (hws1 : AllReal ws1) : AllReal (layer1 selN selT selS tD ent rel wm1 ws1) :=
  allReal_upd
    (allReal_scatterRows (allReal_matProd (allReal_had (allReal_gatherRows (allReal_gatherRows hent selN) selS)
      (allReal_gatherRows hrel selT)) hwm1) tD)
    (allReal_gatherRows hent selN) hws1 (allReal_invDeg tD)

/-! ## The three rearrangements -/

/-- Projecting rows and then fetching them is fetching them and then projecting. -/
theorem gather_matProd (x : Mat R H) (w : Mat H O) (sel : Fin E → Fin R) :
    gatherRows (matProd x w) sel = matProd (gatherRows x sel) w := rfl

/-- Scaling rows and then fetching them is fetching rows and factors and then scaling. -/
theorem gather_rowScale (a : Mat N C) (s : Mat N 1) (sel : Fin E → Fin N) :
    gatherRows (rowScale a s) sel = rowScale (gatherRows a sel) (gatherRows s sel) := rfl

/-- The projection moves across the sum over incoming edges and the row scaling, on real entries. -/
theorem proj_scatter (tD : Fin E → Option (Fin N)) (comp : Mat E J) (wm : Mat J H) (s : Mat N 1)
    (hc : AllReal comp) (hw : AllReal wm) (hs : AllReal s) :
    matProd (rowScale (scatterRows tD comp) s) wm = rowScale (scatterRows tD (matProd comp wm)) s := by
  obtain ⟨c, hc⟩ := exists_real_family comp hc
  obtain ⟨w, hw⟩ := exists_real_family wm hw
  obtain ⟨d, hd⟩ := exists_real_family s hs
  funext i
  obtain ⟨n, j, rfl⟩ : ∃ (n : Fin N) (j : Fin H), i = ix2 n j := ⟨i 0, i 1, eq_ix2 i⟩
  show ∑ k : Fin J, ((Z + ∑ e ∈ Finset.univ.filter (fun e : Fin E => tD e = some n), comp (ix2 e k)) * s (ix2 n 0)) * wm (ix2 k j)
      = (Z + ∑ e ∈ Finset.univ.filter (fun e : Fin E => tD e = some n), ∑ k : Fin J, comp (ix2 e k) * wm (ix2 k j)) * s (ix2 n 0)
  simp only [hc, hw, hd, Z_eq, zero_add, ← EReal.coe_mul, ← coe_sum]
  refine congrArg _ ?_
  simp only [Finset.sum_mul]
  rw [Finset.sum_comm]
  refine Finset.sum_congr rfl fun e _ => Finset.sum_congr rfl fun k _ => ?_
  ring

/-- The late update is the per-edge update, on real entries. -/
theorem updLate_eq (tD : Fin E → Option (Fin N)) (comp : Mat E J) (h1 : Mat N K) (wm : Mat J H) (ws : Mat K H) (s : Mat N 1)
    (hc : AllReal comp) (hw : AllReal wm) (hs : AllReal s) :
    updLate (scatterRows tD comp) h1 wm ws s = upd (scatterRows tD (matProd comp wm)) h1 ws s := by
  unfold updLate upd
  rw [proj_scatter tD comp wm s hc hw hs]

/-- The two arrangements of the rest of the network agree when the first layer's rows, the relation rows and the two
    weights that meet them are real. -/
theorem tail_eq (selT : Fin E → Fin R) (selS : Fin E → Fin N) (tD tS : Fin E → Option (Fin N))
    (h1 : Mat N O) (rel : Mat R H) (wr1 : Mat H O) (wm2 ws2 : Mat O H) (wsc : Mat H H)
    (hh1 : AllReal h1) (hrel : AllReal rel) (hwr1 : AllReal wr1) (hwm2 : AllReal wm2) :
    tailK selT selS tD tS h1 rel wr1 wm2 ws2 wsc = tailR selT selS tD tS h1 rel wr1 wm2 ws2 wsc := by
  unfold tailK tailR
  rw [gather_rowScale, gather_matProd,
    updLate_eq tD _ h1 wm2 ws2 (invDeg tD)
      (allReal_had (allReal_gatherRows hh1 selS) (allReal_matProd (allReal_gatherRows hrel selT) hwr1)) hwm2
      (allReal_invDeg tD)]

/-- THE BRIDGE: on real inputs the late arrangement of the network is the per-edge arrangement. -/
theorem net_eq (selN : Fin N → Fin V) (selT : Fin E → Fin R) (selS : Fin E → Fin N) (tD tS : Fin E → Option (Fin N))
    (ent : Mat V H) (rel : Mat R H) (wm1 ws1 wr1 : Mat H O) (wm2 ws2 : Mat O H) (wsc : Mat H H)
    (hent : AllReal ent) (hrel : AllReal rel) (hwm1 : AllReal wm1) (hws1 : AllReal ws1) (hwr1 : AllReal wr1)
    (hwm2 : AllReal wm2) :
    netK selN selT selS tD tS ent rel wm1 ws1 wr1 wm2 ws2 wsc = netR selN selT selS tD tS ent rel wm1 ws1 wr1 wm2 ws2 wsc :=
  tail_eq selT selS tD tS _ rel wr1 wm2 ws2 wsc (allReal_layer1 selN selT selS tD hent hrel hwm1 hws1) hrel hwr1 hwm2

end Cert.CompGcn

end
-- ==== Proof.Finite.lean ====
/-
  From the precondition to real entries.

  The precondition says, of each float input, that the absolute value of every entry is less than the value of the
  float word of plus infinity, all these facts joined by "and". On the extended reals that word is the top element, and
  the absolute value of x is the larger of x and −x; if that is below the top then x is neither infinity: a real number.
-/
import proofs.«110422_j61856118997742_2_alg».proof.Pre_finite_inputs
import proofs.«110422_j61856118997742_2_alg».proof.Proof.LibRelGraphLaw
import Idealize.ShloMosaic.Lib.ReduceAll
import Idealize.ShloMosaic.Lib.Affine
import Idealize.ShloMosaic.Lib.Pipeline.Value

noncomputable section

namespace Cert.CompGcn.Finite

open Idealize.ShloMosaic Idealize.ShloMosaic.ValueIdx LibRealEntries Cert.CompGcn

instance : Subsingleton (⟨0, ![]⟩ : Shape).Idx := ⟨fun _ _ => funext fun d => d.elim0⟩

/-- The float word of plus infinity is the top element. -/
theorem inf_f32 : Ideal.ofBits .f32 0x7F800000#32 = ⊤ := by simp [Ideal.ofBits, Ideal.ieee]

/-- An extended real whose absolute value is below the top element is a real number. -/
theorem isReal_of_abs_lt (x : EReal) (h : Ideal.cmp .olt (max x (-x)) (Ideal.ofBits .f32 0x7F800000#32) = 1#1) : IsReal x := by
  rw [inf_f32] at h
  have hlt : max x (-x) < ⊤ := by
    by_contra hn
    simp [Ideal.cmp, hn] at h
  refine (isReal_iff x).mpr ⟨fun ht => ?_, fun hb => ?_⟩
  · rw [ht] at hlt; exact absurd (lt_of_le_of_lt (le_max_left _ _) hlt) (lt_irrefl _)
  · rw [hb] at hlt
    exact absurd (lt_of_le_of_lt (le_max_right _ _) hlt) (by simp)

/-- "Every entry's absolute value is below plus infinity", reduced by "and" to one bit that is set: every entry is real. -/
theorem allReal_of_all {s : Shape} {axes : List (Fin s.rank)} (x : FVec Ideal s .f32)
    (hb : (⟨0, ![]⟩ : Shape).BroadcastsInDim s ![]) (hr : s.ReducesTo axes ⟨0, ![]⟩) (hS : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hS ix0 = 1#1) : AllReal x := by
  intro i
  have h := Host.reduce_andi_all _ _ hr hS ix0 e i
  have hc : broadcastInDim s ![] hb (constant (F := Ideal) ⟨0, ![]⟩ .f32 0x7F800000#32) i = Ideal.ofBits .f32 0x7F800000#32 :=
    (broadcastInDim_apply _ hb _ _ (fun a => a.elim0) (fun ax => ax.elim0)).trans rfl
  refine isReal_of_abs_lt (x i) ?_
  rw [← hc]
  exact h

end Cert.CompGcn.Finite

end
-- ==== Proof.FiniteInputs.lean ====
/-
  From the precondition to real entries, input by input.

  The precondition is one bit: for each of the nine float inputs, "every entry's absolute value is below plus
  infinity" reduced by "and" to a bit, and the nine bits joined by "and". If the joined bit is set then each of the nine
  is set, and so every entry of every float input is a real number.
-/
import proofs.«110422_j61856118997742_2_alg».proof.Proof.Finite

noncomputable section

namespace Cert.CompGcn.FiniteInputs

open Idealize.ShloMosaic Idealize.ShloMosaic.ValueIdx LibRealEntries Cert.CompGcn Cert.CompGcn.Finite
open Cert.Pre_finite_inputs

variable [Cert.Pre_finite_inputs.Facts]

/-- The precondition's bit set: every entry of each of the nine float inputs is a real number. -/
theorem reals_of_pre_all (a0 : IVec S100000 32) (a1 a2 a3 : IVec S500000 32) (a4 : FVec Ideal S50000x256 .f32)
    (a5 : FVec Ideal S500x256 .f32) (a6 a7 a8 : FVec Ideal S256x128 .f32) (a9 a10 a11 : FVec Ideal S128x256 .f32)
    (a12 : FVec Ideal S256x256 .f32)
    (h : Cert.Pre_finite_inputs.fn (F := Ideal) a0 a1 a2 a3 a4 a5 a6 a7 a8 a9 a10 a11 a12 = fun _ => 1#1) :
    AllReal a4 ∧ AllReal a5 ∧ AllReal a6 ∧ AllReal a7 ∧ AllReal a8 ∧ AllReal a9 ∧ AllReal a10 ∧ AllReal a11
      ∧ AllReal a12 := by
  have h0 := congrFun h ix0
  dsimp only [Cert.Pre_finite_inputs.fn, Cert.Pre_finite_inputs.fn_part1, Cert.Pre_finite_inputs.fn_part2] at h0
  obtain ⟨h38, h42⟩ := IntOp.andi_eq_one.mp h0
  obtain ⟨h33, h37⟩ := IntOp.andi_eq_one.mp h38
  obtain ⟨h28, h32⟩ := IntOp.andi_eq_one.mp h33
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨allReal_of_all a4 _ _ _ h3, allReal_of_all a5 _ _ _ h7, allReal_of_all a6 _ _ _ h12,
    allReal_of_all a7 _ _ _ h17, allReal_of_all a8 _ _ _ h22, allReal_of_all a9 _ _ _ h27,
    allReal_of_all a10 _ _ _ h32, allReal_of_all a11 _ _ _ h37, allReal_of_all a12 _ _ _ h42⟩

/-- The precondition's bit set: every entry of the entity rows, the relation rows and the four first weights is a
    real number. -/
theorem reals_of_pre (a0 : IVec S100000 32) (a1 a2 a3 : IVec S500000 32) (a4 : FVec Ideal S50000x256 .f32)
    (a5 : FVec Ideal S500x256 .f32) (a6 a7 a8 : FVec Ideal S256x128 .f32) (a9 a10 a11 : FVec Ideal S128x256 .f32)
    (a12 : FVec Ideal S256x256 .f32)
    (h : Cert.Pre_finite_inputs.fn (F := Ideal) a0 a1 a2 a3 a4 a5 a6 a7 a8 a9 a10 a11 a12 = fun _ => 1#1) :
    AllReal a4 ∧ AllReal a5 ∧ AllReal a6 ∧ AllReal a7 ∧ AllReal a8 ∧ AllReal a9 := by
  obtain ⟨r4, r5, r6, r7, r8, r9, -⟩ := reals_of_pre_all a0 a1 a2 a3 a4 a5 a6 a7 a8 a9 a10 a11 a12 h
  exact ⟨r4, r5, r6, r7, r8, r9⟩

end Cert.CompGcn.FiniteInputs

end
-- ==== Proof.lean ====
/-
  The kernel program and its reference compute the same node features on the extended reals.

  Both programs fetch entity rows for the nodes and relation rows for the edges, count in- and out-degrees, and run two
  relational layers and a spectral read-out over the edge list. The kernel program defers the second layer's projection
  until after the sum over incoming edges, projects the relation table before fetching its rows, and scales the second
  layer's rows by the source normalisation before fetching them; the reference does each per edge. On the extended
  reals the two agree once every float input is a real number, which the precondition states: fetching commutes with
  anything done row by row, and the deferred projection is distributivity and an exchange of finite sums over reals.

  The frames of the two kernel programs are the launch over their ten segments; the reference's frame is its run with
  the result dropped. The idealization rewrote no operation, so there is nothing to preserve beyond the text itself.
  For the value claim, the kernel program's run ends with the result buffer at the last segment boundary's contents,
  which read back through the run are the late arrangement of the network applied to the launch arguments; the
  reference's run ends at its operations' composed value, which is the per-edge arrangement.
-/
import proofs.«110422_j61856118997742_2_alg».proof.Defs
import proofs.«110422_j61856118997742_2_alg».proof.Proof.Gen.Kernel
import proofs.«110422_j61856118997742_2_alg».proof.Proof.Gen.Kernel.Frame
import proofs.«110422_j61856118997742_2_alg».proof.Proof.Gen.KernelIdeal
import proofs.«110422_j61856118997742_2_alg».proof.Proof.Gen.KernelIdeal.Frame
import proofs.«110422_j61856118997742_2_alg».proof.Proof.Gen.ReferenceIdeal
import proofs.«110422_j61856118997742_2_alg».proof.Proof.Gen.ReferenceIdeal.Run
import proofs.«110422_j61856118997742_2_alg».proof.Proof.Gen.ReferenceIdeal.Read
import proofs.«110422_j61856118997742_2_alg».proof.Proof.Gen.Pre_finite_inputs
import proofs.«110422_j61856118997742_2_alg».proof.Proof.KRun
import proofs.«110422_j61856118997742_2_alg».proof.Proof.KFold
import proofs.«110422_j61856118997742_2_alg».proof.Proof.RefSide
import proofs.«110422_j61856118997742_2_alg».proof.Proof.LibRelGraphLaw
import proofs.«110422_j61856118997742_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 2000000 in
/-- From memories agreeing on the arguments both programs end with the same result array: the kernel program's is the
    late arrangement of the network, the reference's the per-edge arrangement, of the same real inputs. -/
theorem algebraic : Cert.algebraic_KernelIdeal_ReferenceIdeal := by
  intro m ρ m' ρ' hpre hagree
  refine ⟨fun c => Cert.KernelIdeal.Gen.W10 m ρ c (Proc.devRef .tc Cert.KernelIdeal.main_v83),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  have hR := (Cert.ReferenceIdeal.Read.val_main_v93_eq m' c).trans (Cert.CompGcn.RefSide.ref_eq _ _ _ _ _ _ _ _ _ _ _ _)
  refine hR.trans ?_
  show _ = Cert.KernelIdeal.Gen.W10 m ρ c (Proc.devRef .tc Cert.KernelIdeal.main_v83)
  rw [Cert.KernelIdeal.Fold.result_eq m ρ c]
  obtain ⟨h0, h1, h2, h3, h4, h5, h6, h7, h8, h9, h10, _, h12⟩ := hagree c
  rw [h0, h1, h2, h3, h4, h5, h6, h7, h8, h9, h10, h12]
  obtain ⟨r4, r5, r6, r7, r8, r9⟩ := Cert.CompGcn.FiniteInputs.reals_of_pre _ _ _ _ _ _ _ _ _ _ _ _ _ (hpre c)
  exact (Cert.CompGcn.net_eq _ _ _ _ _ _ _ _ _ _ _ _ _ r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
